-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x11 : Shape := ⟨2, ![100000, 11]⟩
abbrev S100000x3 : Shape := ⟨2, ![100000, 3]⟩
abbrev S2x3200000 : Shape := ⟨2, ![2, 3200000]⟩
abbrev S100000 : Shape := ⟨1, ![100000]⟩
abbrev S14x64 : Shape := ⟨2, ![14, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x11 : S_.BroadcastsInDim S100000x11 (![] : Fin 0 → Fin S100000x11.rank)
  reducesTo_S100000x11_S_d0_1 : S100000x11.ReducesTo [0, 1] S_
  h_S_ : 0 < S_.numel
  bcast_S_S100000x3 : S_.BroadcastsInDim S100000x3 (![] : Fin 0 → Fin S100000x3.rank)
  reducesTo_S100000x3_S_d0_1 : S100000x3.ReducesTo [0, 1] S_
  bcast_S_S14x64 : S_.BroadcastsInDim S14x64 (![] : Fin 0 → Fin S14x64.rank)
  reducesTo_S14x64_S_d0_1 : S14x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S64 .f32) (main_arg10 : FVec F S64x1 .f32) (main_arg11 : FVec F S1 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x1 .f32 := Host.absf main_arg10
  let main_cst_14 : FVec F S_ .f32 := constant S_ .f32 0x7F800000#32
  let main_v40 : FVec F S64x1 .f32 := broadcastInDim S64x1 ![] bcast_S_S64x1 main_cst_14
  let main_v41 : IVec S64x1 1 := cmpf .olt main_v39 main_v40
  let main_c_15 : IVec S_ 1 := constantI S_ 1 1#1
  let main_v42 : IVec S_ 1 := (fun x v => Host.reduce IntOp.andi x v reducesTo_S64x1_S_d0_1 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg6 : FVec F S64 .f32) (main_arg7 : FVec F S64x64 .f32) (main_arg8 : FVec F S64x64 .f32) (main_arg9 : FVec F S64 .f32) (main_arg10 : FVec F S64x1 .f32) (main_arg11 : FVec F S1 .f32) (main_v13 : IVec S_ 1) (main_v16 : IVec S14x64 1) : IVec S_ 1 :=
  let main_c_5 : IVec S_ 1 := constantI S_ 1 1#1
  let main_v17 : IVec S_ 1 := (fun x v => Host.reduce IntOp.andi x v reducesTo_S14x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x11 .f32) (main_arg1 : FVec F S100000x3 .f32) (main_arg2 : IVec S2x3200000 32) (main_arg3 : IVec S100000 32) (main_arg4 : FVec F S14x64 .f32) (main_arg5 : FVec F S14x64 .f32) (main_arg6 : FVec F S64 .f32) (main_arg7 : FVec F S64x64 .f32) (main_arg8 : FVec F S64x64 .f32) (main_arg9 : FVec F S64 .f32) (main_arg10 : FVec F S64x1 .f32) (main_arg11 : FVec F S1 .f32) : IVec S_ 1 :=
  let main_v0 : FVec F S100000x11 .f32 := Host.absf main_arg0
  let main_cst : FVec F S_ .f32 := constant S_ .f32 0x7F800000#32
  let main_v1 : FVec F S100000x11 .f32 := broadcastInDim S100000x11 ![] bcast_S_S100000x11 main_cst
  let main_v2 : IVec S100000x11 1 := cmpf .olt main_v0 main_v1
  let main_c : IVec S_ 1 := constantI S_ 1 1#1
  let main_v3 : IVec S_ 1 := (fun x v => Host.reduce IntOp.andi x v reducesTo_S100000x11_S_d0_1 h_S_) main_v2 main_c
  let main_v4 : FVec F S100000x3 .f32 := Host.absf main_arg1
  let main_cst_0 : FVec F S_ .f32 := constant S_ .f32 0x7F800000#32
  let main_v5 : FVec F S100000x3 .f32 := broadcastInDim S100000x3 ![] bcast_S_S100000x3 main_cst_0
  let main_v6 : IVec S100000x3 1 := cmpf .olt main_v4 main_v5
  let main_c_1 : IVec S_ 1 := constantI S_ 1 1#1
  let main_v7 : IVec S_ 1 := (fun x v => Host.reduce IntOp.andi x v reducesTo_S100000x3_S_d0_1 h_S_) main_v6 main_c_1
  let main_v8 : IVec S_ 1 := andi main_v3 main_v7
  let main_v9 : FVec F S14x64 .f32 := Host.absf main_arg4
  let main_cst_2 : FVec F S_ .f32 := constant S_ .f32 0x7F800000#32
  let main_v10 : FVec F S14x64 .f32 := broadcastInDim S14x64 ![] bcast_S_S14x64 main_cst_2
  let main_v11 : IVec S14x64 1 := cmpf .olt main_v9 main_v10
  let main_c_3 : IVec S_ 1 := constantI S_ 1 1#1
  let main_v12 : IVec S_ 1 := (fun x v => Host.reduce IntOp.andi x v reducesTo_S14x64_S_d0_1 h_S_) main_v11 main_c_3
  let main_v13 : IVec S_ 1 := andi main_v8 main_v12
  let main_v14 : FVec F S14x64 .f32 := Host.absf main_arg5
  let main_cst_4 : FVec F S_ .f32 := constant S_ .f32 0x7F800000#32
  let main_v15 : FVec F S14x64 .f32 := broadcastInDim S14x64 ![] bcast_S_S14x64 main_cst_4
  let main_v16 : IVec S14x64 1 := cmpf .olt main_v14 main_v15
  fn_part1 (F := F) main_arg6 main_arg7 main_arg8 main_arg9 main_arg10 main_arg11 main_v13 main_v16
-- ==== Kernel.lean ====
abbrev S100000x11 : Shape := ⟨2, ![100000, 11]⟩
abbrev S100000x3 : Shape := ⟨2, ![100000, 3]⟩
abbrev S2x3200000 : Shape := ⟨2, ![2, 3200000]⟩
abbrev S100000 : Shape := ⟨1, ![100000]⟩
abbrev S14x64 : Shape := ⟨2, ![14, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S100000x14 : Shape := ⟨2, ![100000, 14]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100000x1 : Shape := ⟨2, ![100000, 1]⟩
abbrev S3200000x14 : Shape := ⟨2, ![3200000, 14]⟩
abbrev S1x64 : Shape := ⟨2, ![1, 64]⟩
abbrev S100000x64 : Shape := ⟨2, ![100000, 64]⟩
abbrev S10000x14 : Shape := ⟨2, ![10000, 14]⟩
abbrev S10000x64 : Shape := ⟨2, ![10000, 64]⟩
abbrev S3200000x64 : Shape := ⟨2, ![3200000, 64]⟩
abbrev S5000 : Shape := ⟨1, ![5000]⟩
abbrev S5000x1 : Shape := ⟨2, ![5000, 1]⟩
abbrev S5000x64 : Shape := ⟨2, ![5000, 64]⟩
abbrev S1x1 : Shape := ⟨2, ![1, 1]⟩

abbrev nBuf : Space → Nat
  | .hbm => 79
  | .vmem => 22
  | .smem => 0
  | _ => 0

abbrev bufTy : (tb : Table) → Fin (tcTables nBuf tb) → BufTy
  | .hbm, ⟨0, _⟩ => ⟨S100000x11, .f32⟩
  | .hbm, ⟨1, _⟩ => ⟨S100000x3, .f32⟩
  | .hbm, ⟨2, _⟩ => ⟨S2x3200000, .i32⟩
  | .hbm, ⟨3, _⟩ => ⟨S100000, .i32⟩
  | .hbm, ⟨4, _⟩ => ⟨S14x64, .f32⟩
  | .hbm, ⟨5, _⟩ => ⟨S14x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S64x1, .f32⟩
  | .hbm, ⟨11, _⟩ => ⟨S1, .f32⟩
  | .hbm, ⟨12, _⟩ => ⟨S100000x14, .f32⟩
  | .hbm, ⟨13, _⟩ => ⟨S1x3200000, .i32⟩
  | .hbm, ⟨14, _⟩ => ⟨S3200000, .i32⟩
  | .hbm, ⟨15, _⟩ => ⟨S1x3200000, .i32⟩
  | .hbm, ⟨16, _⟩ => ⟨S3200000, .i32⟩
  | .hbm, ⟨17, _⟩ => ⟨S_, .f32⟩
  | .hbm, ⟨18, _⟩ => ⟨S3200000, .f32⟩
  | .hbm, ⟨19, _⟩ => ⟨S_, .f32⟩
  | .hbm, ⟨20, _⟩ => ⟨S100000, .f32⟩
  | .hbm, ⟨21, _⟩ => ⟨S3200000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S_, .i32⟩
  | .hbm, ⟨28, _⟩ => ⟨S3200000, .i32⟩
  | .hbm, ⟨29, _⟩ => ⟨S3200000, .i1⟩
  | .hbm, ⟨30, _⟩ => ⟨S_, .i32⟩
  | .hbm, ⟨31, _⟩ => ⟨S3200000, .i32⟩
  | .hbm, ⟨32, _⟩ => ⟨S3200000, .i32⟩
  | .hbm, ⟨33, _⟩ => ⟨S3200000, .i32⟩
  | .hbm, ⟨34, _⟩ => ⟨S3200000x1, .i32⟩
  | .hbm, ⟨35, _⟩ => ⟨S3200000x14, .f32⟩
  | .hbm, ⟨36, _⟩ => ⟨S_, .f32⟩
  | .hbm, ⟨37, _⟩ => ⟨S100000x14, .f32⟩
  | .hbm, ⟨38, _⟩ => ⟨S3200000x1, .i32⟩
  | .hbm, ⟨39, _⟩ => ⟨S100000x14, .f32⟩
  | .hbm, ⟨40, _⟩ => ⟨S100000x14, .f32⟩
  | .hbm, ⟨41, _⟩ => ⟨S100000x14, .f32⟩
  | .hbm, ⟨42, _⟩ => ⟨S1x64, .f32⟩
  | .hbm, ⟨43, _⟩ => ⟨S100000x64, .f32⟩
  | .hbm, ⟨44, _⟩ => ⟨S_, .i32⟩
  | .hbm, ⟨45, _⟩ => ⟨S3200000, .i32⟩
  | .hbm, ⟨46, _⟩ => ⟨S3200000, .i1⟩
  | .hbm, ⟨47, _⟩ => ⟨S_, .i32⟩
  | .hbm, ⟨48, _⟩ => ⟨S3200000, .i32⟩
  | .hbm, ⟨49, _⟩ => ⟨S3200000, .i32⟩
  | .hbm, ⟨50, _⟩ => ⟨S3200000, .i32⟩
  | .hbm, ⟨51, _⟩ => ⟨S3200000x1, .i32⟩
  | .hbm, ⟨52, _⟩ => ⟨S3200000x64, .f32⟩
  | .hbm, ⟨53, _⟩ => ⟨S_, .f32⟩
  | .hbm, ⟨54, _⟩ => ⟨S100000x64, .f32⟩
  | .hbm, ⟨55, _⟩ => ⟨S3200000x1, .i32⟩
  | .hbm, ⟨56, _⟩ => ⟨S100000x64, .f32⟩
  | .hbm, ⟨57, _⟩ => ⟨S100000x64, .f32⟩
  | .hbm, ⟨58, _⟩ => ⟨S100000x64, .f32⟩
  | .hbm, ⟨59, _⟩ => ⟨S1x64, .f32⟩
  | .hbm, ⟨60, _⟩ => ⟨S100000x64, .f32⟩
  | .hbm, ⟨61, _⟩ => ⟨S_, .f32⟩
  | .hbm, ⟨62, _⟩ => ⟨S100000, .f32⟩
  | .hbm, ⟨63, _⟩ => ⟨S_, .f32⟩
  | .hbm, ⟨64, _⟩ => ⟨S5000, .f32⟩
  | .hbm, ⟨65, _⟩ => ⟨S100000x1, .i32⟩
  | .hbm, ⟨66, _⟩ => ⟨S5000, .f32⟩
  | .hbm, ⟨67, _⟩ => ⟨S_, .f32⟩
  | .hbm, ⟨68, _⟩ => ⟨S5000, .f32⟩
  | .hbm, ⟨69, _⟩ => ⟨S5000, .f32⟩
  | .hbm, ⟨70, _⟩ => ⟨S5000x1, .f32⟩
  | .hbm, ⟨71, _⟩ => ⟨S_, .f32⟩
  | .hbm, ⟨72, _⟩ => ⟨S5000x64, .f32⟩
  | .hbm, ⟨73, _⟩ => ⟨S100000x1, .i32⟩
  | .hbm, ⟨74, _⟩ => ⟨S5000x64, .f32⟩
  | .hbm, ⟨75, _⟩ => ⟨S5000x64, .f32⟩
  | .hbm, ⟨76, _⟩ => ⟨S5000x64, .f32⟩
  | .hbm, ⟨77, _⟩ => ⟨S1x1, .f32⟩
  | .hbm, ⟨78, _⟩ => ⟨S5000x1, .f32⟩
  | .local _ .vmem, ⟨0, _⟩ => ⟨S10000x14, .f32⟩
  | .local _ .vmem, ⟨1, _⟩ => ⟨S10000x14, .f32⟩
  | .local _ .vmem, ⟨2, _⟩ => ⟨S10000x14, .f32⟩
  | .local _ .vmem, ⟨3, _⟩ => ⟨S10000x14, .f32⟩
  | .local _ .vmem, ⟨4, _⟩ => ⟨S14x64, .f32⟩
  | .local _ .vmem, ⟨5, _⟩ => ⟨S14x64, .f32⟩
  | .local _ .vmem, ⟨6, _⟩ => ⟨S1x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S10000x64, .f32⟩
  | .local _ .vmem, ⟨17, _⟩ => ⟨S10000x64, .f32⟩
  | .local _ .vmem, ⟨18, _⟩ => ⟨S5000x64, .f32⟩
  | .local _ .vmem, ⟨19, _⟩ => ⟨S64x1, .f32⟩
  | .local _ .vmem, ⟨20, _⟩ => ⟨S1x1, .f32⟩
  | .local _ .vmem, ⟨21, _⟩ => ⟨S5000x1, .f32⟩
  | _, _ => ⟨S100000x11, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_4 : Ref sig .tc := ⟨.hbm, 44, rfl⟩
abbrev main_v26 : Ref sig .tc := ⟨.hbm, 45, rfl⟩
abbrev main_v27 : Ref sig .tc := ⟨.hbm, 46, rfl⟩
abbrev main_c_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_6 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_10 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem1_0 : DmaSem sig := 19
abbrev cc2_sem2_0 : DmaSem sig := 20
abbrev cc2_sem3_0 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x14 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x14 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S14x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S14x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S5000x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S64x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S5000x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  concatenates_S100000x11_S100000x3_S100000x14_d1 : Shape.Concatenates [S100000x11, S100000x3] S100000x14 1
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  bcast_S_S100000x14 : S_.BroadcastsInDim S100000x14 (![] : Fin 0 → Fin S100000x14.rank)
  bcast_S100000x1_S100000x14_0_1 : S100000x1.BroadcastsInDim S100000x14 (![0, 1] : Fin 2 → Fin S100000x14.rank)
  shapeCasts_S64_S1x64 : S64.ShapeCasts S1x64
  inb_S10000x14_S10000x14_0_0 : ∀ a, (![0, 0] : Fin 2 → Nat) a + S10000x14.size a ≤ S10000x14.size a
  h_S10000x14 : 0 < S10000x14.numel
  shapeCasts_S10000x14_S10000x14 : S10000x14.ShapeCasts S10000x14
  bitsLt_bf16_f32 : FTy.bits .bf16 < FTy.bits .f32
  inb_S14x64_S14x64_0_0 : ∀ a, (![0, 0] : Fin 2 → Nat) a + S14x64.size a ≤ S14x64.size a
  h_S14x64 : 0 < S14x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  bcast_S_S5000 : S_.BroadcastsInDim S5000 (![] : Fin 0 → Fin S5000.rank)
  bcast_S5000_S5000x1_0 : S5000.BroadcastsInDim S5000x1 (![0] : Fin 1 → Fin S5000x1.rank)
  bcast_S_S5000x64 : S_.BroadcastsInDim S5000x64 (![] : Fin 0 → Fin S5000x64.rank)
  bcast_S5000x1_S5000x64_0_1 : S5000x1.BroadcastsInDim S5000x64 (![0, 1] : Fin 2 → Fin S5000x64.rank)
  shapeCasts_S1_S1x1 : S1.ShapeCasts S1x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  scatter_S100000_S3200000x1_S3200000_n_0_0_1_wf : ScatterDims.WF S100000 S3200000x1 S3200000 [] [0] [0] 1
  gather_S100000x14_S3200000x1_S3200000x14_1_0_n_n_0_1_114_wf : GatherDims.WF S100000x14 S3200000x1 S3200000x14 [1] [0] [] [0] [] 1 ![1, 14]
  scatter_S100000x14_S3200000x1_S3200000x14_1_0_0_1_wf : ScatterDims.WF S100000x14 S3200000x1 S3200000x14 [1] [0] [0] 1
  dot_S10000x14_S14x64_S10000x64_1_0_0_1_n_n_wf : DotDims.WF S10000x14 S14x64 S10000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S10000x64_S64x64_S10000x64_1_0_0_1_n_n_wf : DotDims.WF S10000x64 S64x64 S10000x64 [1] [0] [0] [1] [] []
  scatter_S5000_S100000x1_S100000_n_0_0_1_wf : ScatterDims.WF S5000 S100000x1 S100000 [] [0] [0] 1
  scatter_S5000x64_S100000x1_S100000x64_1_0_0_1_wf : ScatterDims.WF S5000x64 S100000x1 S100000x64 [1] [0] [0] 1
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x14.size a ≤ S100000x14.size a
  hwx0_0 : ∀ i : grid0.Coords, EltTy.bits .f32 = 32 ∨ (Rect.block (s := S100000x14) S10000x14.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x14.size a ≤ S100000x14.size a
  hwx0_1 : ∀ i : grid0.Coords, EltTy.bits .f32 = 32 ∨ (Rect.block (s := S100000x14) S10000x14.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S14x64.size a ≤ S14x64.size a
  hwx0_2 : ∀ i : grid0.Coords, EltTy.bits .f32 = 32 ∨ (Rect.block (s := S14x64) S14x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S14x64.size a ≤ S14x64.size a
  hwx0_3 : ∀ i : grid0.Coords, EltTy.bits .f32 = 32 ∨ (Rect.block (s := S14x64) S14x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S5000x64.size a
  hwx2_0 : ∀ i : grid2.Coords, EltTy.bits .f32 = 32 ∨ (Rect.block (s := S5000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x1.size a ≤ S64x1.size a
  hwx2_1 : ∀ i : grid2.Coords, EltTy.bits .f32 = 32 ∨ (Rect.block (s := S64x1) S64x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S5000x1.size a
  hwx2_3 : ∀ i : grid2.Coords, EltTy.bits .f32 = 32 ∨ (Rect.block (s := S5000x1) S5000x1.size (cc2_transform_3 i) (hinb2_3 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x14_S3200000x1_S3200000x14_1_0_n_n_0_1_114 : GatherDims S100000x14 S3200000x1 S3200000x14 where
  offsetDims := [1]
  collapsedSliceDims := [0]
  operandBatchingDims := []
  startIndicesBatchingDims := []
  startIndexMap := [0]
  indexVectorDim := 1
  sliceSizes := ![1, 14]
  wf := gather_S100000x14_S3200000x1_S3200000x14_1_0_n_n_0_1_114_wf
def scatter_S100000x14_S3200000x1_S3200000x14_1_0_0_1 : ScatterDims S100000x14 S3200000x1 S3200000x14 where
  updateWindowDims := [1]
  insertedWindowDims := [0]
  scatterDimsToOperandDims := [0]
  indexVectorDim := 1
  wf := scatter_S100000x14_S3200000x1_S3200000x14_1_0_0_1_wf
def dot_S10000x14_S14x64_S10000x64_1_0_0_1_n_n : DotDims S10000x14 S14x64 S10000x64 where
  lhsContracting := [1]
  rhsContracting := [0]
  lhsNonContracting := [0]
  rhsNonContracting := [1]
  lhsBatch := []
  rhsBatch := []
  wf := dot_S10000x14_S14x64_S10000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S5000_S100000x1_S100000_n_0_0_1 : ScatterDims S5000 S100000x1 S100000 where
  updateWindowDims := []
  insertedWindowDims := [0]
  scatterDimsToOperandDims := [0]
  indexVectorDim := 1
  wf := scatter_S5000_S100000x1_S100000_n_0_0_1_wf
def scatter_S5000x64_S100000x1_S100000x64_1_0_0_1 : ScatterDims S5000x64 S100000x1 S100000x64 where
  updateWindowDims := [1]
  insertedWindowDims := [0]
  scatterDimsToOperandDims := [0]
  indexVectorDim := 1
  wf := scatter_S5000x64_S100000x1_S100000x64_1_0_0_1_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_v23) S10000x14.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10000x14.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S14x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S14x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v37) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v51) S5000x64.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S64x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S5000x1.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x11 : Shape := ⟨2, ![100000, 11]⟩
abbrev S100000x3 : Shape := ⟨2, ![100000, 3]⟩
abbrev S2x3200000 : Shape := ⟨2, ![2, 3200000]⟩
abbrev S100000 : Shape := ⟨1, ![100000]⟩
abbrev S14x64 : Shape := ⟨2, ![14, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S100000x14 : Shape := ⟨2, ![100000, 14]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x14 : Shape := ⟨2, ![3200000, 14]⟩
abbrev S100000x1 : Shape := ⟨2, ![100000, 1]⟩
abbrev S100000x64 : Shape := ⟨2, ![100000, 64]⟩
abbrev S1x64 : Shape := ⟨2, ![1, 64]⟩
abbrev S3200000x64 : Shape := ⟨2, ![3200000, 64]⟩
abbrev S5000x64 : Shape := ⟨2, ![5000, 64]⟩
abbrev S5000 : Shape := ⟨1, ![5000]⟩
abbrev S5000x1 : Shape := ⟨2, ![5000, 1]⟩
abbrev S1x1 : Shape := ⟨2, ![1, 1]⟩

abbrev nBuf : Space → Nat
  | .hbm => 105
  | .vmem => 0
  | .smem => 0
  | _ => 0

abbrev bufTy : (tb : Table) → Fin (tcTables nBuf tb) → BufTy
  | .hbm, ⟨0, _⟩ => ⟨S100000x11, .f32⟩
  | .hbm, ⟨1, _⟩ => ⟨S100000x3, .f32⟩
  | .hbm, ⟨2, _⟩ => ⟨S2x3200000, .i32⟩
  | .hbm, ⟨3, _⟩ => ⟨S100000, .i32⟩
  | .hbm, ⟨4, _⟩ => ⟨S14x64, .f32⟩
  | .hbm, ⟨5, _⟩ => ⟨S14x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S64x1, .f32⟩
  | .hbm, ⟨11, _⟩ => ⟨S1, .f32⟩
  | .hbm, ⟨12, _⟩ => ⟨S100000x14, .f32⟩
  | .hbm, ⟨13, _⟩ => ⟨S1x3200000, .i32⟩
  | .hbm, ⟨14, _⟩ => ⟨S3200000, .i32⟩
  | .hbm, ⟨15, _⟩ => ⟨S1x3200000, .i32⟩
  | .hbm, ⟨16, _⟩ => ⟨S3200000, .i32⟩
  | .hbm, ⟨17, _⟩ => ⟨S_, .i32⟩
  | .hbm, ⟨18, _⟩ => ⟨S3200000, .i32⟩
  | .hbm, ⟨19, _⟩ => ⟨S3200000, .i1⟩
  | .hbm, ⟨20, _⟩ => ⟨S_, .i32⟩
  | .hbm, ⟨21, _⟩ => ⟨S3200000, .i32⟩
  | .hbm, ⟨22, _⟩ => ⟨S3200000, .i32⟩
  | .hbm, ⟨23, _⟩ => ⟨S3200000, .i32⟩
  | .hbm, ⟨24, _⟩ => ⟨S3200000x1, .i32⟩
  | .hbm, ⟨25, _⟩ => ⟨S3200000x14, .f32⟩
  | .hbm, ⟨26, _⟩ => ⟨S_, .f32⟩
  | .hbm, ⟨27, _⟩ => ⟨S100000x14, .f32⟩
  | .hbm, ⟨28, _⟩ => ⟨S3200000x1, .i32⟩
  | .hbm, ⟨29, _⟩ => ⟨S100000x14, .f32⟩
  | .hbm, ⟨30, _⟩ => ⟨S_, .f32⟩
  | .hbm, ⟨31, _⟩ => ⟨S3200000, .f32⟩
  | .hbm, ⟨32, _⟩ => ⟨S_, .f32⟩
  | .hbm, ⟨33, _⟩ => ⟨S100000, .f32⟩
  | .hbm, ⟨34, _⟩ => ⟨S3200000x1, .i32⟩
  | .hbm, ⟨35, _⟩ => ⟨S100000, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S100000x1, .f32⟩
  | .hbm, ⟨40, _⟩ => ⟨S100000x14, .f32⟩
  | .hbm, ⟨41, _⟩ => ⟨S100000x14, .f32⟩
  | .hbm, ⟨42, _⟩ => ⟨S100000x64, .f32⟩
  | .hbm, ⟨43, _⟩ => ⟨S100000x64, .f32⟩
  | .hbm, ⟨44, _⟩ => ⟨S100000x64, .f32⟩
  | .hbm, ⟨45, _⟩ => ⟨S1x64, .f32⟩
  | .hbm, ⟨46, _⟩ => ⟨S100000x64, .f32⟩
  | .hbm, ⟨47, _⟩ => ⟨S100000x64, .f32⟩
  | .hbm, ⟨48, _⟩ => ⟨S_, .f32⟩
  | .hbm, ⟨49, _⟩ => ⟨S100000x64, .f32⟩
  | .hbm, ⟨50, _⟩ => ⟨S100000x64, .f32⟩
  | .hbm, ⟨51, _⟩ => ⟨S_, .i32⟩
  | .hbm, ⟨52, _⟩ => ⟨S3200000, .i32⟩
  | .hbm, ⟨53, _⟩ => ⟨S3200000, .i1⟩
  | .hbm, ⟨54, _⟩ => ⟨S_, .i32⟩
  | .hbm, ⟨55, _⟩ => ⟨S3200000, .i32⟩
  | .hbm, ⟨56, _⟩ => ⟨S3200000, .i32⟩
  | .hbm, ⟨57, _⟩ => ⟨S3200000, .i32⟩
  | .hbm, ⟨58, _⟩ => ⟨S3200000x1, .i32⟩
  | .hbm, ⟨59, _⟩ => ⟨S3200000x64, .f32⟩
  | .hbm, ⟨60, _⟩ => ⟨S_, .f32⟩
  | .hbm, ⟨61, _⟩ => ⟨S100000x64, .f32⟩
  | .hbm, ⟨62, _⟩ => ⟨S3200000x1, .i32⟩
  | .hbm, ⟨63, _⟩ => ⟨S100000x64, .f32⟩
  | .hbm, ⟨64, _⟩ => ⟨S_, .f32⟩
  | .hbm, ⟨65, _⟩ => ⟨S3200000, .f32⟩
  | .hbm, ⟨66, _⟩ => ⟨S_, .f32⟩
  | .hbm, ⟨67, _⟩ => ⟨S100000, .f32⟩
  | .hbm, ⟨68, _⟩ => ⟨S3200000x1, .i32⟩
  | .hbm, ⟨69, _⟩ => ⟨S100000, .f32⟩
  | .hbm, ⟨70, _⟩ => ⟨S_, .f32⟩
  | .hbm, ⟨71, _⟩ => ⟨S100000, .f32⟩
  | .hbm, ⟨72, _⟩ => ⟨S100000, .f32⟩
  | .hbm, ⟨73, _⟩ => ⟨S100000x1, .f32⟩
  | .hbm, ⟨74, _⟩ => ⟨S100000x64, .f32⟩
  | .hbm, ⟨75, _⟩ => ⟨S100000x64, .f32⟩
  | .hbm, ⟨76, _⟩ => ⟨S100000x64, .f32⟩
  | .hbm, ⟨77, _⟩ => ⟨S100000x64, .f32⟩
  | .hbm, ⟨78, _⟩ => ⟨S100000x64, .f32⟩
  | .hbm, ⟨79, _⟩ => ⟨S1x64, .f32⟩
  | .hbm, ⟨80, _⟩ => ⟨S100000x64, .f32⟩
  | .hbm, ⟨81, _⟩ => ⟨S100000x64, .f32⟩
  | .hbm, ⟨82, _⟩ => ⟨S_, .f32⟩
  | .hbm, ⟨83, _⟩ => ⟨S100000x64, .f32⟩
  | .hbm, ⟨84, _⟩ => ⟨S100000x64, .f32⟩
  | .hbm, ⟨85, _⟩ => ⟨S_, .f32⟩
  | .hbm, ⟨86, _⟩ => ⟨S5000x64, .f32⟩
  | .hbm, ⟨87, _⟩ => ⟨S100000x1, .i32⟩
  | .hbm, ⟨88, _⟩ => ⟨S5000x64, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S5000, .f32⟩
  | .hbm, ⟨93, _⟩ => ⟨S100000x1, .i32⟩
  | .hbm, ⟨94, _⟩ => ⟨S5000, .f32⟩
  | .hbm, ⟨95, _⟩ => ⟨S_, .f32⟩
  | .hbm, ⟨96, _⟩ => ⟨S5000, .f32⟩
  | .hbm, ⟨97, _⟩ => ⟨S5000, .f32⟩
  | .hbm, ⟨98, _⟩ => ⟨S5000x1, .f32⟩
  | .hbm, ⟨99, _⟩ => ⟨S5000x64, .f32⟩
  | .hbm, ⟨100, _⟩ => ⟨S5000x64, .f32⟩
  | .hbm, ⟨101, _⟩ => ⟨S5000x1, .f32⟩
  | .hbm, ⟨102, _⟩ => ⟨S1x1, .f32⟩
  | .hbm, ⟨103, _⟩ => ⟨S5000x1, .f32⟩
  | .hbm, ⟨104, _⟩ => ⟨S5000x1, .f32⟩
  | _, _ => ⟨S100000x11, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_call0_cst : Ref sig .tc := ⟨.hbm, 48, rfl⟩
abbrev main_call0_v0 : Ref sig .tc := ⟨.hbm, 49, rfl⟩
abbrev main_v30 : Ref sig .tc := ⟨.hbm, 50, rfl⟩
abbrev main_c_4 : Ref sig .tc := ⟨.hbm, 51, rfl⟩
abbrev main_v31 : Ref sig .tc := ⟨.hbm, 52, rfl⟩
abbrev main_v32 : Ref sig .tc := ⟨.hbm, 53, rfl⟩
abbrev main_c_5 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_6 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_7 : Ref sig .tc := ⟨.hbm, 64, rfl⟩
abbrev main_v41 : Ref sig .tc := ⟨.hbm, 65, rfl⟩
abbrev main_cst_8 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_9 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_call1_cst : Ref sig .tc := ⟨.hbm, 82, rfl⟩
abbrev main_call1_v0 : Ref sig .tc := ⟨.hbm, 83, rfl⟩
abbrev main_v56 : Ref sig .tc := ⟨.hbm, 84, rfl⟩
abbrev main_cst_10 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_11 : Ref sig .tc := ⟨.hbm, 89, rfl⟩
abbrev main_v60 : Ref sig .tc := ⟨.hbm, 90, rfl⟩
abbrev main_cst_12 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_13 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩

abbrev nD : Nat := 1
abbrev τ : Topo := Topo.v7x

variable {F : FTy → Type} [FloatOps F]

class Facts₀ : Prop where
  concatenates_S100000x11_S100000x3_S100000x14_d1 : Shape.Concatenates [S100000x11, S100000x3] S100000x14 1
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x14 : S_.BroadcastsInDim S100000x14 (![] : Fin 0 → Fin S100000x14.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x14_0_1 : S100000x1.BroadcastsInDim S100000x14 (![0, 1] : Fin 2 → Fin S100000x14.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S_S5000x64 : S_.BroadcastsInDim S5000x64 (![] : Fin 0 → Fin S5000x64.rank)
  bcast_S_S5000 : S_.BroadcastsInDim S5000 (![] : Fin 0 → Fin S5000.rank)
  bcast_S5000_S5000x1_0 : S5000.BroadcastsInDim S5000x1 (![0] : Fin 1 → Fin S5000x1.rank)
  bcast_S5000x1_S5000x64_0_1 : S5000x1.BroadcastsInDim S5000x64 (![0, 1] : Fin 2 → Fin S5000x64.rank)
  bcast_S1_S1x1_1 : S1.BroadcastsInDim S1x1 (![1] : Fin 1 → Fin S1x1.rank)
  bcast_S1x1_S5000x1_0_1 : S1x1.BroadcastsInDim S5000x1 (![0, 1] : Fin 2 → Fin S5000x1.rank)
  gather_S100000x14_S3200000x1_S3200000x14_1_0_n_n_0_1_114_wf : GatherDims.WF S100000x14 S3200000x1 S3200000x14 [1] [0] [] [0] [] 1 ![1, 14]
  scatter_S100000x14_S3200000x1_S3200000x14_1_0_0_1_wf : ScatterDims.WF S100000x14 S3200000x1 S3200000x14 [1] [0] [0] 1
  scatter_S100000_S3200000x1_S3200000_n_0_0_1_wf : ScatterDims.WF S100000 S3200000x1 S3200000 [] [0] [0] 1
  dot_S100000x14_S14x64_S100000x64_1_0_0_1_n_n_wf : DotDims.WF S100000x14 S14x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x64_S100000x64_1_0_0_1_n_n_wf : DotDims.WF S100000x64 S64x64 S100000x64 [1] [0] [0] [1] [] []
  scatter_S5000x64_S100000x1_S100000x64_1_0_0_1_wf : ScatterDims.WF S5000x64 S100000x1 S100000x64 [1] [0] [0] 1
  scatter_S5000_S100000x1_S100000_n_0_0_1_wf : ScatterDims.WF S5000 S100000x1 S100000 [] [0] [0] 1
  dot_S5000x64_S64x1_S5000x1_1_0_0_1_n_n_wf : DotDims.WF S5000x64 S64x1 S5000x1 [1] [0] [0] [1] [] []

variable [Facts₀]

def gather_S100000x14_S3200000x1_S3200000x14_1_0_n_n_0_1_114 : GatherDims S100000x14 S3200000x1 S3200000x14 where
  offsetDims := [1]
  collapsedSliceDims := [0]
  operandBatchingDims := []
  startIndicesBatchingDims := []
  startIndexMap := [0]
  indexVectorDim := 1
  sliceSizes := ![1, 14]
  wf := gather_S100000x14_S3200000x1_S3200000x14_1_0_n_n_0_1_114_wf
def scatter_S100000x14_S3200000x1_S3200000x14_1_0_0_1 : ScatterDims S100000x14 S3200000x1 S3200000x14 where
  updateWindowDims := [1]
  insertedWindowDims := [0]
  scatterDimsToOperandDims := [0]
  indexVectorDim := 1
  wf := scatter_S100000x14_S3200000x1_S3200000x14_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x14_S14x64_S100000x64_1_0_0_1_n_n : DotDims S100000x14 S14x64 S100000x64 where
  lhsContracting := [1]
  rhsContracting := [0]
  lhsNonContracting := [0]
  rhsNonContracting := [1]
  lhsBatch := []
  rhsBatch := []
  wf := dot_S100000x14_S14x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S5000x64_S100000x1_S100000x64_1_0_0_1 : ScatterDims S5000x64 S100000x1 S100000x64 where
  updateWindowDims := [1]
  insertedWindowDims := [0]
  scatterDimsToOperandDims := [0]
  indexVectorDim := 1
  wf := scatter_S5000x64_S100000x1_S100000x64_1_0_0_1_wf
def scatter_S5000_S100000x1_S100000_n_0_0_1 : ScatterDims S5000 S100000x1 S100000 where
  updateWindowDims := []
  insertedWindowDims := [0]
  scatterDimsToOperandDims := [0]
  indexVectorDim := 1
  wf := scatter_S5000_S100000x1_S100000_n_0_0_1_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

class Facts : Prop extends Facts₀ where

variable [Facts]
-- ==== Proof.KRun.lean ====
/-
  The idealized kernel's run, with its result named.  @main is six segments: three stretches of host operations, each
  followed by one of the three kernel regions.  The contents of the TensorCore's buffers at each segment boundary are a
  fold through @main (`Gen.W0 … Gen.W6`): a host stretch applies its operations to the previous boundary's contents, a
  region replaces its output array by what its write-backs leave and keeps every other buffer.  The launch theorem for
  several regions gives, for every weakly fair execution, a final state whose unscoped buffers hold the last boundary's
  contents `Gen.W6`.  Read at the result buffer this says the run ends with the result at `Gen.W6 … main_v53`; read at
  the argument buffers it says they end as launched.
-/
import proofs.«126216_j32727650795728_1_alg».proof.Proof.GenP.KernelIdeal.Frame

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, in a state where the result buffer holds the last
    segment boundary's contents at that buffer and every argument holds what it was launched with. -/
theorem run_out : θ_run defs (onTc (τ := τ) (main (F := F))) ⟨m, fun _ => 0, ρ⟩ (fun r => ∀ c : Dev nD,
      r.2.mem ((c.tc : Thread nD τ).loc main_v53) = W6 m ρ c (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v53 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

end Cert.KernelIdeal.Net

end
-- ==== Proof.LibPlainDot.lean ====
/-
  General lemmas at the ideal instance (floats are extended reals) for a plain two-dimensional contraction
  `[M, K] × [K, N] → [M, N]` and for the row broadcasts that go with it, each read at an index.

  * `PlainDot.sum_contr`: the sum over the one-axis contraction index of a plain dot is the sum over `k : Fin K` of
    the left operand at `(row, k)` times the right operand at `(k, column)`.
  * `PlainDot.matmul_zero_apply` / `PlainDot.dotGeneral_apply`: the matrix unit's product into a zero accumulator and
    the host's `dot_general` are both that sum.
  * the row forms of a broadcast: a `[1, N]` array broadcast over `M` rows reads its one row; a vector of `N` entries
    re-laid as one row `[1, N]` (by a reshape or by a broadcast along a new leading axis) reads the vector.
  * `PlainDot.affineAt`: `(∑ₖ A[r,k]·Wl[k,c]) + (∑ₖ H[r,k]·Wr[k,c]) + b[c]` clamped below by `z` (a two-operand affine map
    followed by `max · z`), and `PlainDot.linAt`: `(∑ₖ P[r,k]·W[k,c]) + b[c]`; the host's spelling and the kernel
    body's spelling of each are these functions index by index; and the congruence that reads a block's entry as
    an array's entry.
-/
import Idealize.ShloMosaic.PureOps.Ideal.Laws
import Idealize.ShloMosaic.Lib.ValueIdx
import Idealize.ShloMosaic.Lib.Pipeline.Value

noncomputable section

open Idealize.ShloMosaic Idealize.ShloMosaic.ValueIdx

namespace PlainDot

variable {M K N : Nat}

/-- The sum over a plain dot's contraction index, re-indexed by the one contracted coordinate. -/
theorem sum_contr (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact ((DotDims.plain M K N).lhsIdx_val_of_single rfl j _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl j _).trans hk
      | ⟨1, _⟩ => rfl)
  exact congrArg₂ (· * ·) (congrArg l el) (congrArg r er)

/-- The matrix unit's product into a zero accumulator, at an index. -/
theorem matmul_zero_apply {φ₁ φ₂ : FTy} (prec : Option ContractPrecision) (l : FVec Ideal ⟨2, ![M, K]⟩ φ₁)
    (r : FVec Ideal ⟨2, ![K, N]⟩ φ₂) (j : (⟨2, ![M, N]⟩ : Shape).Idx) :
    matmul (DotDims.plain M K N) prec l r (constant (F := Ideal) ⟨2, ![M, N]⟩ .f32 0x00000000#32) j
      = ∑ k : Fin K, l (ix2 (j 0) k) * r (ix2 k (j 1)) := by
  show FloatOps.matmul (DotDims.plain M K N) prec l r (constant (F := Ideal) ⟨2, ![M, N]⟩ .f32 0x00000000#32) j = _
  rw [Ideal.matmul_constant_zero_apply]
  exact sum_contr l r j

/-- The host's `dot_general`, at an index. -/
theorem dotGeneral_apply {φ₁ φ₂ : FTy} (prec : Option ContractPrecision) (l : FVec Ideal ⟨2, ![M, K]⟩ φ₁)
    (r : FVec Ideal ⟨2, ![K, N]⟩ φ₂) (j : (⟨2, ![M, N]⟩ : Shape).Idx) :
    Host.dotGeneral (DotDims.plain M K N) prec l r j = ∑ k : Fin K, l (ix2 (j 0) k) * r (ix2 k (j 1)) := by
  show FloatOps.dotGeneral (DotDims.plain M K N) prec .single l r j = _
  rw [Ideal.dotGeneral_apply]
  exact sum_contr l r j

/-! ## Rows -/

section Rows
variable {α : Type}

/-- A one-row array broadcast over `M` rows (`vector.broadcast`) reads its row. -/
theorem broadcastTo_row (x : (⟨2, ![1, N]⟩ : Shape).Idx → α) (h : (⟨2, ![1, N]⟩ : Shape).Broadcasts ⟨2, ![M, N]⟩)
    (j : (⟨2, ![M, N]⟩ : Shape).Idx) : broadcastTo ⟨2, ![M, N]⟩ x h j = x (ix2 0 (j 1)) := by
  refine broadcastTo_apply x h j (ix2 0 (j 1)) fun a => ?_
  match a with
  | ⟨0, _⟩ => rfl
  | ⟨1, _⟩ =>
    show (j 1).val = if N = 1 then 0 else (j 1).val
    split_ifs with hN
    · have := (j 1).isLt; simp only [Matrix.cons_val_one, Matrix.cons_val_zero] at this; omega
    · rfl

/-- A one-row array broadcast over `M` rows (`broadcast_in_dim`, both axes kept) reads its row. -/
theorem broadcastInDim_row (x : (⟨2, ![1, N]⟩ : Shape).Idx → α)
    (h : (⟨2, ![1, N]⟩ : Shape).BroadcastsInDim ⟨2, ![M, N]⟩ ![0, 1]) (j : (⟨2, ![M, N]⟩ : Shape).Idx) :
    broadcastInDim ⟨2, ![M, N]⟩ ![0, 1] h x j = x (ix2 0 (j 1)) := by
  refine broadcastInDim_apply ![0, 1] h x j (ix2 0 (j 1)) fun a => ?_
  match a with
  | ⟨0, _⟩ => rfl
  | ⟨1, _⟩ =>
    show (j 1).val = if N = 1 then 0 else (j 1).val
    split_ifs with hN
    · have := (j 1).isLt; simp only [Matrix.cons_val_one, Matrix.cons_val_zero] at this; omega
    · rfl

/-- A vector laid out as one row by a broadcast along a new leading axis. -/
theorem broadcastInDim_vec_row (b : (⟨1, ![N]⟩ : Shape).Idx → α)
    (h : (⟨1, ![N]⟩ : Shape).BroadcastsInDim ⟨2, ![1, N]⟩ ![1]) (j : (⟨2, ![1, N]⟩ : Shape).Idx) :
    broadcastInDim ⟨2, ![1, N]⟩ ![1] h b j = b (ix1 (j 1)) := by
  refine broadcastInDim_apply ![1] h b j (ix1 (j 1)) fun a => ?_
  match a with
  | ⟨0, _⟩ =>
    show (j 1).val = if N = 1 then 0 else (j 1).val
    split_ifs with hN
    · have := (j 1).isLt; simp only [Matrix.cons_val_one, Matrix.cons_val_zero] at this; omega
    · rfl

/-- A vector laid out as one row by a reshape. -/
theorem shapeCast_vec_row (b : (⟨1, ![N]⟩ : Shape).Idx → α) (h : (⟨1, ![N]⟩ : Shape).ShapeCasts ⟨2, ![1, N]⟩)
    (j : (⟨2, ![1, N]⟩ : Shape).Idx) : shapeCast ⟨2, ![1, N]⟩ b h j = b (ix1 (j 1)) := by
  refine (shapeCast_addUnit_apply ![N] b h j).trans (congrArg b (funext fun a => ?_))
  match a with
  | ⟨0, _⟩ => rfl

/-- The two layouts of a vector as one row are one array. -/
theorem shapeCast_eq_broadcastInDim_row (b : (⟨1, ![N]⟩ : Shape).Idx → α) (h : (⟨1, ![N]⟩ : Shape).ShapeCasts ⟨2, ![1, N]⟩)
    (h' : (⟨1, ![N]⟩ : Shape).BroadcastsInDim ⟨2, ![1, N]⟩ ![1]) :
    shapeCast ⟨2, ![1, N]⟩ b h = broadcastInDim ⟨2, ![1, N]⟩ ![1] h' b :=
  funext fun j => (shapeCast_vec_row b h j).trans (broadcastInDim_vec_row b h' j).symm

/-- A scalar broadcast to any shape reads the scalar. -/
theorem broadcastInDim_scalar {t : Shape} (x : (⟨0, ![]⟩ : Shape).Idx → α)
    (h : (⟨0, ![]⟩ : Shape).BroadcastsInDim t ![]) (j : t.Idx) : broadcastInDim t ![] h x j = x ix0 :=
  broadcastInDim_apply ![] h x j ix0 fun a => a.elim0

end Rows

/-! ## The two affine maps, index by index -/

/-- `max ((∑ₖ A[r,k]·Wl[k,c]) + (∑ₖ H[r,k]·Wr[k,c]) + B[0,c]) z` at `j = (r, c)`. -/
def affineAt (A H : (⟨2, ![M, K]⟩ : Shape).Idx → EReal) (Wl Wr : (⟨2, ![K, N]⟩ : Shape).Idx → EReal)
    (B : (⟨2, ![1, N]⟩ : Shape).Idx → EReal) (z : EReal) (j : (⟨2, ![M, N]⟩ : Shape).Idx) : EReal :=
  max ((∑ k : Fin K, A (ix2 (j 0) k) * Wl (ix2 k (j 1))) + (∑ k : Fin K, H (ix2 (j 0) k) * Wr (ix2 k (j 1))) + B (ix2 0 (j 1))) z

/-- `(∑ₖ P[r,k]·W[k,c]) + B[0,c]` at `j = (r, c)`. -/
def linAt (P : (⟨2, ![M, K]⟩ : Shape).Idx → EReal) (W : (⟨2, ![K, N]⟩ : Shape).Idx → EReal)
    (B : (⟨2, ![1, N]⟩ : Shape).Idx → EReal) (j : (⟨2, ![M, N]⟩ : Shape).Idx) : EReal :=
  (∑ k : Fin K, P (ix2 (j 0) k) * W (ix2 k (j 1))) + B (ix2 0 (j 1))

/-- An entry of `affineAt` over blocks is the entry of `affineAt` over arrays when the block entries it reads are the
    array entries at the matching row and column. -/
theorem affineAt_congr {P : Nat} (a h : (⟨2, ![P, K]⟩ : Shape).Idx → EReal) (wl wr : (⟨2, ![K, N]⟩ : Shape).Idx → EReal)
    (b : (⟨2, ![1, N]⟩ : Shape).Idx → EReal) (A H : (⟨2, ![M, K]⟩ : Shape).Idx → EReal)
    (Wl Wr : (⟨2, ![K, N]⟩ : Shape).Idx → EReal) (B : (⟨2, ![1, N]⟩ : Shape).Idx → EReal) (z : EReal)
    (y : (⟨2, ![P, N]⟩ : Shape).Idx) (i : (⟨2, ![M, N]⟩ : Shape).Idx)
    (ha : ∀ k : Fin K, a (ix2 (y 0) k) = A (ix2 (i 0) k)) (hh : ∀ k : Fin K, h (ix2 (y 0) k) = H (ix2 (i 0) k))
    (hwl : ∀ k : Fin K, wl (ix2 k (y 1)) = Wl (ix2 k (i 1))) (hwr : ∀ k : Fin K, wr (ix2 k (y 1)) = Wr (ix2 k (i 1)))
    (hb : b (ix2 0 (y 1)) = B (ix2 0 (i 1))) :
    affineAt a h wl wr b z y = affineAt A H Wl Wr B z i := by
  have e1 : (∑ k : Fin K, a (ix2 (y 0) k) * wl (ix2 k (y 1))) = ∑ k : Fin K, A (ix2 (i 0) k) * Wl (ix2 k (i 1)) :=
    Finset.sum_congr rfl fun k _ => by rw [ha k, hwl k]
  have e2 : (∑ k : Fin K, h (ix2 (y 0) k) * wr (ix2 k (y 1))) = ∑ k : Fin K, H (ix2 (i 0) k) * Wr (ix2 k (i 1)) :=
    Finset.sum_congr rfl fun k _ => by rw [hh k, hwr k]
  unfold affineAt
  rw [e1, e2, hb]

theorem linAt_congr {P : Nat} (p : (⟨2, ![P, K]⟩ : Shape).Idx → EReal) (w : (⟨2, ![K, N]⟩ : Shape).Idx → EReal)
    (b : (⟨2, ![1, N]⟩ : Shape).Idx → EReal) (Pa : (⟨2, ![M, K]⟩ : Shape).Idx → EReal)
    (W : (⟨2, ![K, N]⟩ : Shape).Idx → EReal) (B : (⟨2, ![1, N]⟩ : Shape).Idx → EReal)
    (y : (⟨2, ![P, N]⟩ : Shape).Idx) (i : (⟨2, ![M, N]⟩ : Shape).Idx)
    (hp : ∀ k : Fin K, p (ix2 (y 0) k) = Pa (ix2 (i 0) k)) (hw : ∀ k : Fin K, w (ix2 k (y 1)) = W (ix2 k (i 1)))
    (hb : b (ix2 0 (y 1)) = B (ix2 0 (i 1))) :
    linAt p w b y = linAt Pa W B i := by
  have e1 : (∑ k : Fin K, p (ix2 (y 0) k) * w (ix2 k (y 1))) = ∑ k : Fin K, Pa (ix2 (i 0) k) * W (ix2 k (i 1)) :=
    Finset.sum_congr rfl fun k _ => by rw [hp k, hw k]
  unfold linAt
  rw [e1, hb]

/-- The host's spelling of the clamped affine map: two `dot_general`s added, a one-row bias broadcast over the rows
    added, `maximum` with a broadcast zero scalar. -/
theorem host_affine_apply (A H : FVec Ideal ⟨2, ![M, K]⟩ .f32) (Wl Wr : FVec Ideal ⟨2, ![K, N]⟩ .f32)
    (B : FVec Ideal ⟨2, ![1, N]⟩ .f32)
    (hb : (⟨2, ![1, N]⟩ : Shape).BroadcastsInDim ⟨2, ![M, N]⟩ ![0, 1])
    (hz : (⟨0, ![]⟩ : Shape).BroadcastsInDim ⟨2, ![M, N]⟩ ![]) (j : (⟨2, ![M, N]⟩ : Shape).Idx) :
    maximumf (addf (addf (Host.dotGeneral (DotDims.plain M K N) none A Wl) (Host.dotGeneral (DotDims.plain M K N) none H Wr))
        (broadcastInDim ⟨2, ![M, N]⟩ ![0, 1] hb B))
      (broadcastInDim ⟨2, ![M, N]⟩ ![] hz (constant (F := Ideal) ⟨0, ![]⟩ .f32 0x00000000#32)) j
      = affineAt A H Wl Wr B (Ideal.ofBits .f32 0x00000000#32) j := by
  rw [maximumf_apply, addf_apply, addf_apply, dotGeneral_apply, dotGeneral_apply, broadcastInDim_row, broadcastInDim_scalar]
  rfl

/-- The host's spelling of the plain affine map. -/
theorem host_lin_apply (P : FVec Ideal ⟨2, ![M, K]⟩ .f32) (W : FVec Ideal ⟨2, ![K, N]⟩ .f32)
    (B : FVec Ideal ⟨2, ![1, N]⟩ .f32)
    (hb : (⟨2, ![1, N]⟩ : Shape).BroadcastsInDim ⟨2, ![M, N]⟩ ![0, 1]) (j : (⟨2, ![M, N]⟩ : Shape).Idx) :
    addf (Host.dotGeneral (DotDims.plain M K N) none P W) (broadcastInDim ⟨2, ![M, N]⟩ ![0, 1] hb B) j
      = linAt P W B j := by
  rw [addf_apply, dotGeneral_apply, broadcastInDim_row]
  rfl

/-- The kernel body's spelling of the clamped affine map: operands rounded to bf16 (the identity on extended reals),
    two matrix-unit products into zero accumulators added, the one-row bias broadcast added, `maximum` with zero. -/
theorem body_affine_apply (x0 x1 : FVec Ideal ⟨2, ![M, K]⟩ .f32) (x2 x3 : FVec Ideal ⟨2, ![K, N]⟩ .f32)
    (x4 : FVec Ideal ⟨2, ![1, N]⟩ .f32)
    (h0 : (⟨2, ![M, K]⟩ : Shape).ShapeCasts ⟨2, ![M, K]⟩) (h4 : (⟨2, ![1, N]⟩ : Shape).ShapeCasts ⟨2, ![1, N]⟩)
    (hlt : FTy.bf16.bits < FTy.f32.bits) (hb : (⟨2, ![1, N]⟩ : Shape).Broadcasts ⟨2, ![M, N]⟩)
    (j : (⟨2, ![M, N]⟩ : Shape).Idx) :
    maximumf (addf (addf
          (matmul (DotDims.plain M K N) none (truncf .bf16 (shapeCast ⟨2, ![M, K]⟩ x0 h0) hlt) (truncf .bf16 x2 hlt)
            (constant (F := Ideal) ⟨2, ![M, N]⟩ .f32 0x00000000#32))
          (matmul (DotDims.plain M K N) none (truncf .bf16 (shapeCast ⟨2, ![M, K]⟩ x1 h0) hlt) (truncf .bf16 x3 hlt)
            (constant (F := Ideal) ⟨2, ![M, N]⟩ .f32 0x00000000#32)))
        (broadcastTo ⟨2, ![M, N]⟩ (shapeCast ⟨2, ![1, N]⟩ x4 h4) hb))
      (broadcast ⟨2, ![M, N]⟩ (Scalar.ofBits (F := Ideal) .f32 0x00000000#32)) j
      = affineAt x0 x1 x2 x3 x4 (Ideal.ofBits .f32 0x00000000#32) j := by
  rw [maximumf_apply, addf_apply, addf_apply, matmul_zero_apply, matmul_zero_apply, broadcastTo_row, shapeCast_self,
    shapeCast_self, shapeCast_self]
  rfl

/-- The kernel body's spelling of the plain affine map. -/
theorem body_lin_apply (x0 : FVec Ideal ⟨2, ![M, K]⟩ .f32) (x1 : FVec Ideal ⟨2, ![K, N]⟩ .f32)
    (x2 : FVec Ideal ⟨2, ![1, N]⟩ .f32)
    (h0 : (⟨2, ![M, K]⟩ : Shape).ShapeCasts ⟨2, ![M, K]⟩) (h2 : (⟨2, ![1, N]⟩ : Shape).ShapeCasts ⟨2, ![1, N]⟩)
    (hlt : FTy.bf16.bits < FTy.f32.bits) (hb : (⟨2, ![1, N]⟩ : Shape).Broadcasts ⟨2, ![M, N]⟩)
    (j : (⟨2, ![M, N]⟩ : Shape).Idx) :
    addf (matmul (DotDims.plain M K N) none (truncf .bf16 (shapeCast ⟨2, ![M, K]⟩ x0 h0) hlt) (truncf .bf16 x1 hlt)
          (constant (F := Ideal) ⟨2, ![M, N]⟩ .f32 0x00000000#32))
        (broadcastTo ⟨2, ![M, N]⟩ (shapeCast ⟨2, ![1, N]⟩ x2 h2) hb) j
      = linAt x0 x1 x2 j := by
  rw [addf_apply, matmul_zero_apply, broadcastTo_row, shapeCast_self, shapeCast_self]
  rfl

end PlainDot

end
-- ==== Proof.Region0.lean ====
/-
  Region 0 of the idealized kernel (the first layer), as one function of the arrays the region finds.

  The region's grid has 10 points; point `t` stages rows `10000·t … 10000·t + 9999` of the two 14-column operands, the
  whole of the two `14 × 64` weight matrices and of the one-row bias, and writes back rows `10000·t …` of the output.
  The body stores `max (a · wl + h · wr + b, 0)` of its blocks (operands rounded to bf16 first, which is the identity on
  extended reals).  Entry `(r, c)` of that store reads row `r` of the two operand blocks, column `c` of the weights and
  of the bias, so block `t` of the output is block `t` of the clamped affine map `PlainDot.affineAt` of the whole
  arrays (`flushed0`); the ten blocks tile the output (`cover0`); hence the output array after the region is
  that map of the arrays at the region's entry (`region0`), whatever those entry contents `V` are.
-/
import proofs.«126216_j32727650795728_1_alg».proof.Proof.GenP.KernelIdeal.Frame
import proofs.«126216_j32727650795728_1_alg».proof.Proof.LibPlainDot
import Idealize.ShloMosaic.Lib.Pipeline.Value

set_option maxRecDepth 16384

noncomputable section

namespace Cert.KernelIdeal.Net

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- The body's stored value, index by index: the clamped affine map of the loaded blocks. -/
theorem pay0_apply (x0 x1 : FVec Ideal S10000x14 .f32) (x2 x3 : FVec Ideal S14x64 .f32) (x4 : FVec Ideal S1x64 .f32)
    (y : S10000x64.Idx) :
    k0_pay1 (F := Ideal) x0 x1 x2 x3 x4 y
      = PlainDot.affineAt (M := 10000) (K := 14) (N := 64) x0 x1 x2 x3 x4 (Ideal.ofBits .f32 0x00000000#32) y :=
  PlainDot.body_affine_apply (M := 10000) (K := 14) (N := 64) x0 x1 x2 x3 x4 shapeCasts_S10000x14_S10000x14
    shapeCasts_S1x64_S1x64 bitsLt_bf16_f32 broadcasts_S1x64_S10000x64 y

/-- What the region's output array ends holding, of the arrays the region finds. -/
def G0 (c : Dev nD) : S100000x64.Idx → EReal :=
  PlainDot.affineAt (M := 100000) (K := 14) (N := 64) (V c main_v23) (V c main_v0) (V c main_arg4) (V c main_arg5) (V c main_v24)
    (Ideal.ofBits .f32 0x00000000#32)

/-- The printed index maps, decided over the ten grid points: the row-blocked windows are at block `(t, 0)`, the
    whole-array windows at block `(0, 0)`. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Every row block of the output is some point's. -/
theorem idx_onto0 : ∀ q : Fin 10, ∃ t : Fin cfg0.N, win0_5.index t = ![q.val, 0] :=
  (by decide +kernel : ∀ q : Fin 10, ∃ t : Fin grid0.N, win0_5.index t = ![q.val, 0])

/-- What point `t` writes back is block `t` of `G0`. -/
theorem flushed0 (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero hz0]
  simp only [View.ld_unit_zero (S := S10000x14) hz0, View.ld_unit_zero (S := S14x64) hz0,
    View.ld_unit_zero (S := S1x64) hz0]
  obtain ⟨e00, e01, e10, e11, e20, e21, e30, e31, e40, e41, e50, e51⟩ := idx0 t
  funext y
  show k0_pay1 (F := Ideal) (iblk0 V c 0 t) (iblk0 V c 1 t) (iblk0 V c 2 t) (iblk0 V c 3 t) (iblk0 V c 4 t) y
    = G0 V c (((cfg0.win 5).blk t).view.emb y)
  refine (pay0_apply (iblk0 V c 0 t) (iblk0 V c 1 t) (iblk0 V c 2 t) (iblk0 V c 3 t) (iblk0 V c 4 t) y).trans ?_
  unfold G0
  refine PlainDot.affineAt_congr (M := 100000) (K := 14) (N := 64) (P := 10000)
    (iblk0 V c 0 t) (iblk0 V c 1 t) (iblk0 V c 2 t) (iblk0 V c 3 t) (iblk0 V c 4 t)
    (V c main_v23) (V c main_v0) (V c main_arg4) (V c main_arg5) (V c main_v24) (Ideal.ofBits .f32 0x00000000#32)
    y (((cfg0.win 5).blk t).view.emb y) ?_ ?_ ?_ ?_ ?_
  · intro k
    show V c main_v23 (((cfg0.win 0).blk t).view.emb (ix2 (y 0) k)) = V c main_v23 (ix2 ((((cfg0.win 5).blk t).view.emb y) 0) k)
    refine congrArg (V c main_v23) (funext fun a => Fin.ext ?_)
    match a with
    | ⟨0, _⟩ => show win0_0.index t (0 : Fin 2) * 10000 + 1 * (y 0).val = win0_5.index t (0 : Fin 2) * 10000 + 1 * (y 0).val; omega
    | ⟨1, _⟩ => show win0_0.index t (1 : Fin 2) * 14 + 1 * k.val = k.val; omega
  · intro k
    show V c main_v0 (((cfg0.win 1).blk t).view.emb (ix2 (y 0) k)) = V c main_v0 (ix2 ((((cfg0.win 5).blk t).view.emb y) 0) k)
    refine congrArg (V c main_v0) (funext fun a => Fin.ext ?_)
    match a with
    | ⟨0, _⟩ => show win0_1.index t (0 : Fin 2) * 10000 + 1 * (y 0).val = win0_5.index t (0 : Fin 2) * 10000 + 1 * (y 0).val; omega
    | ⟨1, _⟩ => show win0_1.index t (1 : Fin 2) * 14 + 1 * k.val = k.val; omega
  · intro k
    show V c main_arg4 (((cfg0.win 2).blk t).view.emb (ix2 k (y 1))) = V c main_arg4 (ix2 k ((((cfg0.win 5).blk t).view.emb y) 1))
    refine congrArg (V c main_arg4) (funext fun a => Fin.ext ?_)
    match a with
    | ⟨0, _⟩ => show win0_2.index t (0 : Fin 2) * 14 + 1 * k.val = k.val; omega
    | ⟨1, _⟩ => show win0_2.index t (1 : Fin 2) * 64 + 1 * (y 1).val = win0_5.index t (1 : Fin 2) * 64 + 1 * (y 1).val; omega
  · intro k
    show V c main_arg5 (((cfg0.win 3).blk t).view.emb (ix2 k (y 1))) = V c main_arg5 (ix2 k ((((cfg0.win 5).blk t).view.emb y) 1))
    refine congrArg (V c main_arg5) (funext fun a => Fin.ext ?_)
    match a with
    | ⟨0, _⟩ => show win0_3.index t (0 : Fin 2) * 14 + 1 * k.val = k.val; omega
    | ⟨1, _⟩ => show win0_3.index t (1 : Fin 2) * 64 + 1 * (y 1).val = win0_5.index t (1 : Fin 2) * 64 + 1 * (y 1).val; omega
  · show V c main_v24 (((cfg0.win 4).blk t).view.emb (ix2 0 (y 1))) = V c main_v24 (ix2 0 ((((cfg0.win 5).blk t).view.emb y) 1))
    refine congrArg (V c main_v24) (funext fun a => Fin.ext ?_)
    match a with
    | ⟨0, _⟩ => show win0_4.index t (0 : Fin 2) * 1 + 1 * 0 = 0; omega
    | ⟨1, _⟩ => show win0_4.index t (1 : Fin 2) * 64 + 1 * (y 1).val = win0_5.index t (1 : Fin 2) * 64 + 1 * (y 1).val; omega

/-- An index of the output array is in point `t`'s block iff each coordinate is in the block's range on its axis. -/
theorem mem_blk0 (t : Fin cfg0.N) (i : S100000x64.Idx) :
    i ∈ ((cfg0.win 5).blk t).view.set ↔ ∀ a : Fin 2, win0_5.index t a * S10000x64.size a ≤ (i a).val
      ∧ (i a).val < win0_5.index t a * S10000x64.size a + S10000x64.size a := by
  show i ∈ ((View.whole main_v25).slice (win0_5.rect t)).set ↔ _
  rw [View.set_slice_whole, Rect.mem_set_unit]
  exact Iff.rfl

/-- The ten row blocks tile the output: row `r` is in the block of point `r / 10000`. -/
theorem cover0 (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, ht⟩ := idx_onto0 ⟨(i 0).val / 10000, by omega⟩
  have q0 : win0_5.index t (0 : Fin 2) = (i 0).val / 10000 := congrFun ht 0
  have q1 : win0_5.index t (1 : Fin 2) = 0 := congrFun ht 1
  refine ⟨t, flush0_5 t, ?_⟩
  rw [mem_blk0]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 64 ≤ (i 1).val ∧ (i 1).val < win0_5.index t (1 : Fin 2) * 64 + 64; omega

/-- The output array after the region is the clamped affine map of the arrays at the region's entry. -/
theorem region0 (c : Dev nD) : (dat0 V c).arrAt 5 cfg0.N = G0 V c :=
  (dat0 V c).arrAt_eq_of_cover 5 (G0 V c) (fun t _ => flushed0 V c t) (cover0)

end Cert.KernelIdeal.Net

end
-- ==== Proof.Region1.lean ====
/-
  Region 1 of the idealized kernel (the second layer), as one function of the arrays the region finds.

  The region's grid has 10 points; point `t` stages rows `10000·t … 10000·t + 9999` of the two 64-column operands, the
  whole of the two `64 × 64` weight matrices and of the one-row bias, and writes back rows `10000·t …` of the output.
  The body stores `max (a · wl + h · wr + b, 0)` of its blocks (operands rounded to bf16 first, which is the identity on
  extended reals).  Entry `(r, c)` of that store reads row `r` of the two operand blocks, column `c` of the weights and
  of the bias, so block `t` of the output is block `t` of the clamped affine map `PlainDot.affineAt` of the whole
  arrays (`flushed1`); the ten blocks tile the output (`cover1`); hence the output array after the region is
  that map of the arrays at the region's entry (`region1`), whatever those entry contents `V` are.
-/
import proofs.«126216_j32727650795728_1_alg».proof.Proof.GenP.KernelIdeal.Frame
import proofs.«126216_j32727650795728_1_alg».proof.Proof.LibPlainDot
import Idealize.ShloMosaic.Lib.Pipeline.Value

set_option maxRecDepth 16384

noncomputable section

namespace Cert.KernelIdeal.Net

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- The body's stored value, index by index: the clamped affine map of the loaded blocks. -/
theorem pay1_apply (x0 x1 : FVec Ideal S10000x64 .f32) (x2 x3 : FVec Ideal S64x64 .f32) (x4 : FVec Ideal S1x64 .f32)
    (y : S10000x64.Idx) :
    k1_pay1 (F := Ideal) x0 x1 x2 x3 x4 y
      = PlainDot.affineAt (M := 10000) (K := 64) (N := 64) x0 x1 x2 x3 x4 (Ideal.ofBits .f32 0x00000000#32) y :=
  PlainDot.body_affine_apply (M := 10000) (K := 64) (N := 64) x0 x1 x2 x3 x4 shapeCasts_S10000x64_S10000x64
    shapeCasts_S1x64_S1x64 bitsLt_bf16_f32 broadcasts_S1x64_S10000x64 y

/-- What the region's output array ends holding, of the arrays the region finds. -/
def G1 (c : Dev nD) : S100000x64.Idx → EReal :=
  PlainDot.affineAt (M := 100000) (K := 64) (N := 64) (V c main_v37) (V c main_v25) (V c main_arg7) (V c main_arg8) (V c main_v38)
    (Ideal.ofBits .f32 0x00000000#32)

/-- The printed index maps, decided over the ten grid points: the row-blocked windows are at block `(t, 0)`, the
    whole-array windows at block `(0, 0)`. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Every row block of the output is some point's. -/
theorem idx_onto1 : ∀ q : Fin 10, ∃ t : Fin cfg1.N, win1_5.index t = ![q.val, 0] :=
  (by decide +kernel : ∀ q : Fin 10, ∃ t : Fin grid1.N, win1_5.index t = ![q.val, 0])

/-- What point `t` writes back is block `t` of `G1`. -/
theorem flushed1 (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero hz1]
  simp only [View.ld_unit_zero (S := S10000x64) hz1, View.ld_unit_zero (S := S64x64) hz1,
    View.ld_unit_zero (S := S1x64) hz1]
  obtain ⟨e00, e01, e10, e11, e20, e21, e30, e31, e40, e41, e50, e51⟩ := idx1 t
  funext y
  show k1_pay1 (F := Ideal) (iblk1 V c 0 t) (iblk1 V c 1 t) (iblk1 V c 2 t) (iblk1 V c 3 t) (iblk1 V c 4 t) y
    = G1 V c (((cfg1.win 5).blk t).view.emb y)
  refine (pay1_apply (iblk1 V c 0 t) (iblk1 V c 1 t) (iblk1 V c 2 t) (iblk1 V c 3 t) (iblk1 V c 4 t) y).trans ?_
  unfold G1
  refine PlainDot.affineAt_congr (M := 100000) (K := 64) (N := 64) (P := 10000)
    (iblk1 V c 0 t) (iblk1 V c 1 t) (iblk1 V c 2 t) (iblk1 V c 3 t) (iblk1 V c 4 t)
    (V c main_v37) (V c main_v25) (V c main_arg7) (V c main_arg8) (V c main_v38) (Ideal.ofBits .f32 0x00000000#32)
    y (((cfg1.win 5).blk t).view.emb y) ?_ ?_ ?_ ?_ ?_
  · intro k
    show V c main_v37 (((cfg1.win 0).blk t).view.emb (ix2 (y 0) k)) = V c main_v37 (ix2 ((((cfg1.win 5).blk t).view.emb y) 0) k)
    refine congrArg (V c main_v37) (funext fun a => Fin.ext ?_)
    match a with
    | ⟨0, _⟩ => show win1_0.index t (0 : Fin 2) * 10000 + 1 * (y 0).val = win1_5.index t (0 : Fin 2) * 10000 + 1 * (y 0).val; omega
    | ⟨1, _⟩ => show win1_0.index t (1 : Fin 2) * 64 + 1 * k.val = k.val; omega
  · intro k
    show V c main_v25 (((cfg1.win 1).blk t).view.emb (ix2 (y 0) k)) = V c main_v25 (ix2 ((((cfg1.win 5).blk t).view.emb y) 0) k)
    refine congrArg (V c main_v25) (funext fun a => Fin.ext ?_)
    match a with
    | ⟨0, _⟩ => show win1_1.index t (0 : Fin 2) * 10000 + 1 * (y 0).val = win1_5.index t (0 : Fin 2) * 10000 + 1 * (y 0).val; omega
    | ⟨1, _⟩ => show win1_1.index t (1 : Fin 2) * 64 + 1 * k.val = k.val; omega
  · intro k
    show V c main_arg7 (((cfg1.win 2).blk t).view.emb (ix2 k (y 1))) = V c main_arg7 (ix2 k ((((cfg1.win 5).blk t).view.emb y) 1))
    refine congrArg (V c main_arg7) (funext fun a => Fin.ext ?_)
    match a with
    | ⟨0, _⟩ => show win1_2.index t (0 : Fin 2) * 64 + 1 * k.val = k.val; omega
    | ⟨1, _⟩ => show win1_2.index t (1 : Fin 2) * 64 + 1 * (y 1).val = win1_5.index t (1 : Fin 2) * 64 + 1 * (y 1).val; omega
  · intro k
    show V c main_arg8 (((cfg1.win 3).blk t).view.emb (ix2 k (y 1))) = V c main_arg8 (ix2 k ((((cfg1.win 5).blk t).view.emb y) 1))
    refine congrArg (V c main_arg8) (funext fun a => Fin.ext ?_)
    match a with
    | ⟨0, _⟩ => show win1_3.index t (0 : Fin 2) * 64 + 1 * k.val = k.val; omega
    | ⟨1, _⟩ => show win1_3.index t (1 : Fin 2) * 64 + 1 * (y 1).val = win1_5.index t (1 : Fin 2) * 64 + 1 * (y 1).val; omega
  · show V c main_v38 (((cfg1.win 4).blk t).view.emb (ix2 0 (y 1))) = V c main_v38 (ix2 0 ((((cfg1.win 5).blk t).view.emb y) 1))
    refine congrArg (V c main_v38) (funext fun a => Fin.ext ?_)
    match a with
    | ⟨0, _⟩ => show win1_4.index t (0 : Fin 2) * 1 + 1 * 0 = 0; omega
    | ⟨1, _⟩ => show win1_4.index t (1 : Fin 2) * 64 + 1 * (y 1).val = win1_5.index t (1 : Fin 2) * 64 + 1 * (y 1).val; omega

/-- An index of the output array is in point `t`'s block iff each coordinate is in the block's range on its axis. -/
theorem mem_blk1 (t : Fin cfg1.N) (i : S100000x64.Idx) :
    i ∈ ((cfg1.win 5).blk t).view.set ↔ ∀ a : Fin 2, win1_5.index t a * S10000x64.size a ≤ (i a).val
      ∧ (i a).val < win1_5.index t a * S10000x64.size a + S10000x64.size a := by
  show i ∈ ((View.whole main_v39).slice (win1_5.rect t)).set ↔ _
  rw [View.set_slice_whole, Rect.mem_set_unit]
  exact Iff.rfl

/-- The ten row blocks tile the output: row `r` is in the block of point `r / 10000`. -/
theorem cover1 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ := idx_onto1 ⟨(i 0).val / 10000, by omega⟩
  have q0 : win1_5.index t (0 : Fin 2) = (i 0).val / 10000 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 64 ≤ (i 1).val ∧ (i 1).val < win1_5.index t (1 : Fin 2) * 64 + 64; omega

/-- The output array after the region is the clamped affine map of the arrays at the region's entry. -/
theorem region1 (c : Dev nD) : (dat1 V c).arrAt 5 cfg1.N = G1 V c :=
  (dat1 V c).arrAt_eq_of_cover 5 (G1 V c) (fun t _ => flushed1 V c t) (cover1)

end Cert.KernelIdeal.Net

end
-- ==== Proof.Region2.lean ====
/-
  Region 2 of the idealized kernel (the head), as one function of the arrays the region finds.

  The grid has one point, which stages the whole `5000 × 64` pooled array, the whole `64 × 1` weight column and the
  one-entry bias, and writes back the whole `5000 × 1` output.  The body stores `p · w + b` (operands rounded to bf16
  first, the identity on extended reals), so the output array after the region is the affine map `PlainDot.linAt` of
  the arrays at the region's entry (`region2`), whatever those entry contents `V` are.
-/
import proofs.«126216_j32727650795728_1_alg».proof.Proof.GenP.KernelIdeal.Frame
import proofs.«126216_j32727650795728_1_alg».proof.Proof.LibPlainDot
import Idealize.ShloMosaic.Lib.Pipeline.Value

set_option maxRecDepth 16384

noncomputable section

namespace Cert.KernelIdeal.Net

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The body's stored value, index by index: the affine map of the loaded blocks. -/
theorem pay2_apply (x0 : FVec Ideal S5000x64 .f32) (x1 : FVec Ideal S64x1 .f32) (x2 : FVec Ideal S1x1 .f32)
    (y : S5000x1.Idx) :
    k2_pay1 (F := Ideal) x0 x1 x2 y = PlainDot.linAt (M := 5000) (K := 64) (N := 1) x0 x1 x2 y :=
  PlainDot.body_lin_apply (M := 5000) (K := 64) (N := 1) x0 x1 x2 shapeCasts_S5000x64_S5000x64
    shapeCasts_S1x1_S1x1 bitsLt_bf16_f32 broadcasts_S1x1_S5000x1 y

/-- What the region's output array ends holding, of the arrays the region finds. -/
def G2 (c : Dev nD) : S5000x1.Idx → EReal :=
  PlainDot.linAt (M := 5000) (K := 64) (N := 1) (V c main_v51) (V c main_arg10) (V c main_v52)

/-- The printed index maps at the grid's one point: every window is at block `(0, 0)`. -/
theorem idx2 : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

/-- What the one point writes back is the whole of `G2`. -/
theorem flushed2 (c : Dev nD) (t : Fin cfg2.N) :
    (dat2 V c).flushed 3 t = ((cfg2.win 3).blk t).view.read (Elt Ideal) (G2 V c) := by
  show (cfg2.win 3).cut (grid2.coords t) ((dat2 V c).after 3 t) = _
  rw [after2_3]
  unfold out2_3
  rw [View.canon_unit_zero hz2]
  simp only [View.ld_unit_zero (S := S5000x64) hz2, View.ld_unit_zero (S := S64x1) hz2,
    View.ld_unit_zero (S := S1x1) hz2]
  obtain ⟨e00, e01, e10, e11, e20, e21, e30, e31⟩ := idx2 t
  funext y
  show k2_pay1 (F := Ideal) (iblk2 V c 0 t) (iblk2 V c 1 t) (iblk2 V c 2 t) y
    = G2 V c (((cfg2.win 3).blk t).view.emb y)
  refine (pay2_apply (iblk2 V c 0 t) (iblk2 V c 1 t) (iblk2 V c 2 t) y).trans ?_
  unfold G2
  refine PlainDot.linAt_congr (M := 5000) (K := 64) (N := 1) (P := 5000)
    (iblk2 V c 0 t) (iblk2 V c 1 t) (iblk2 V c 2 t) (V c main_v51) (V c main_arg10) (V c main_v52)
    y (((cfg2.win 3).blk t).view.emb y) ?_ ?_ ?_
  · intro k
    show V c main_v51 (((cfg2.win 0).blk t).view.emb (ix2 (y 0) k)) = V c main_v51 (ix2 ((((cfg2.win 3).blk t).view.emb y) 0) k)
    refine congrArg (V c main_v51) (funext fun a => Fin.ext ?_)
    match a with
    | ⟨0, _⟩ => show win2_0.index t (0 : Fin 2) * 5000 + 1 * (y 0).val = win2_3.index t (0 : Fin 2) * 5000 + 1 * (y 0).val; omega
    | ⟨1, _⟩ => show win2_0.index t (1 : Fin 2) * 64 + 1 * k.val = k.val; omega
  · intro k
    show V c main_arg10 (((cfg2.win 1).blk t).view.emb (ix2 k (y 1))) = V c main_arg10 (ix2 k ((((cfg2.win 3).blk t).view.emb y) 1))
    refine congrArg (V c main_arg10) (funext fun a => Fin.ext ?_)
    match a with
    | ⟨0, _⟩ => show win2_1.index t (0 : Fin 2) * 64 + 1 * k.val = k.val; omega
    | ⟨1, _⟩ => show win2_1.index t (1 : Fin 2) * 1 + 1 * (y 1).val = win2_3.index t (1 : Fin 2) * 1 + 1 * (y 1).val; omega
  · show V c main_v52 (((cfg2.win 2).blk t).view.emb (ix2 0 (y 1))) = V c main_v52 (ix2 0 ((((cfg2.win 3).blk t).view.emb y) 1))
    refine congrArg (V c main_v52) (funext fun a => Fin.ext ?_)
    match a with
    | ⟨0, _⟩ => show win2_2.index t (0 : Fin 2) * 1 + 1 * 0 = 0; omega
    | ⟨1, _⟩ => show win2_2.index t (1 : Fin 2) * 1 + 1 * (y 1).val = win2_3.index t (1 : Fin 2) * 1 + 1 * (y 1).val; omega

/-- An index of the output array is in point `t`'s block iff each coordinate is in the block's range on its axis. -/
theorem mem_blk2 (t : Fin cfg2.N) (i : S5000x1.Idx) :
    i ∈ ((cfg2.win 3).blk t).view.set ↔ ∀ a : Fin 2, win2_3.index t a * S5000x1.size a ≤ (i a).val
      ∧ (i a).val < win2_3.index t a * S5000x1.size a + S5000x1.size a := by
  show i ∈ ((View.whole main_v53).slice (win2_3.rect t)).set ↔ _
  rw [View.set_slice_whole, Rect.mem_set_unit]
  exact Iff.rfl

/-- The one block is the whole output. -/
theorem cover2 (i : S5000x1.Idx) :
    ∃ t : Fin cfg2.N, (cfg2.win 3).flush t = true ∧ i ∈ ((cfg2.win 3).blk t).view.set := by
  have hi0 : (i 0).val < 5000 := (i 0).isLt
  have hi1 : (i 1).val < 1 := (i 1).isLt
  obtain ⟨e00, e01, e10, e11, e20, e21, e30, e31⟩ := idx2 t2_0
  refine ⟨t2_0, flush2_3 t2_0, ?_⟩
  rw [mem_blk2]
  intro a
  match a with
  | ⟨0, _⟩ => show win2_3.index t2_0 (0 : Fin 2) * 5000 ≤ (i 0).val ∧ (i 0).val < win2_3.index t2_0 (0 : Fin 2) * 5000 + 5000; omega
  | ⟨1, _⟩ => show win2_3.index t2_0 (1 : Fin 2) * 1 ≤ (i 1).val ∧ (i 1).val < win2_3.index t2_0 (1 : Fin 2) * 1 + 1; omega

/-- The output array after the region is the affine map of the arrays at the region's entry. -/
theorem region2 (c : Dev nD) : (dat2 V c).arrAt 3 cfg2.N = G2 V c :=
  (dat2 V c).arrAt_eq_of_cover 3 (G2 V c) (fun t _ => flushed2 V c t) (cover2)

end Cert.KernelIdeal.Net

end
-- ==== Proof.Net.lean ====
/-
  The network both programs compute, as one function of the twelve argument arrays, built from the host's operations
  at the ideal instance (floats are extended reals).

  The graph has 100000 nodes with 11 + 3 features each and 3200000 directed edges `(src, dst)`; `batch` assigns each
  node to one of 5000 graphs.
    * `feat x pos`      — the node features: `x` and `pos` side by side, 14 columns.
    * `srcOf e`, `dstOf e` — the two rows of the edge list.
    * `wrap s`          — source indices with negative ones shifted by the node count, as a column of gather indices.
    * `degCol d`        — per node, the number of incoming edges (a scatter-add of ones over `dst`), at least 1, as a column.
    * `agg14`, `agg64`  — the mean over incoming edges of the source nodes' rows: gather rows at `src`, scatter-add them
                         at `dst`, divide by the degree column broadcast over the feature columns.
    * `layer14`, `layer64` — one layer: `max (agg · Wl + h · Wr + b, 0)` (two matrix products, a bias row, clamp at 0).
    * `pool bt h`       — per graph, the mean of its nodes' rows: scatter-add rows at `batch`, divide by the node count
                         (at least 1).
    * `lin p w b`       — the head: `p · w + b`.
  `net` composes them: two layers, the pooling, the head.  `net_eq_reference`: the reference program's result term is
  `net` of its arguments.  `layer14_eq`, `layer64_eq`, `lin_eq`: each layer and the head, index by index, is the
  clamped affine map `PlainDot.affineAt` / the affine map `PlainDot.linAt` of its operands.
-/
import proofs.«126216_j32727650795728_1_alg».proof.Proof.Gen.ReferenceIdeal.Run
import proofs.«126216_j32727650795728_1_alg».proof.Proof.LibPlainDot

noncomputable section

namespace Cert.Net

open Cert.ReferenceIdeal Cert.ReferenceIdeal.Gen Idealize.ShloMosaic Idealize.ShloMosaic.TcCoe Idealize.SL.Sem

/-- The node features: `x` and `pos` side by side. -/
def feat (x : FVec Ideal S100000x11 .f32) (p : FVec Ideal S100000x3 .f32) : FVec Ideal S100000x14 .f32 :=
  concatenate S100000x14 1 [⟨S100000x11, x⟩, ⟨S100000x3, p⟩] concatenates_S100000x11_S100000x3_S100000x14_d1

/-- The edges' source nodes: row 0 of the edge list. -/
def srcOf (e : IVec S2x3200000 32) : IVec S3200000 32 :=
  shapeCast _ (extractStridedSlice S1x3200000 ![0, 0] e slices_S2x3200000_S1x3200000_0_0) shapeCasts_S1x3200000_S3200000

/-- The edges' target nodes: row 1 of the edge list. -/
def dstOf (e : IVec S2x3200000 32) : IVec S3200000 32 :=
  shapeCast _ (extractStridedSlice S1x3200000 ![1, 0] e slices_S2x3200000_S1x3200000_1_0) shapeCasts_S1x3200000_S3200000

/-- Gather indices: a negative index counts from the end (the node count is added), then one index per row. -/
def wrap (s : IVec S3200000 32) : IVec S3200000x1 32 :=
  broadcastInDim S3200000x1 ![0] bcast_S3200000_S3200000x1_0
    (select (cmpi .slt s (broadcastInDim S3200000 ![] bcast_S_S3200000 (constantI S_ 32 0#32)))
      (addi s (broadcastInDim S3200000 ![] bcast_S_S3200000 (constantI S_ 32 100000#32))) s)

/-- Scatter indices: one index per row. -/
def col (d : IVec S3200000 32) : IVec S3200000x1 32 :=
  broadcastInDim S3200000x1 ![0] bcast_S3200000_S3200000x1_0 d

/-- Per node, the number of incoming edges, at least one, as a column. -/
def degCol (d : IVec S3200000 32) : FVec Ideal S100000x1 .f32 :=
  broadcastInDim S100000x1 ![0] bcast_S100000_S100000x1_0
    (maximumf
      (Host.scatterAdd scatter_S100000_S3200000x1_S3200000_n_0_0_1
        (broadcastInDim S100000 ![] bcast_S_S100000 (constant S_ .f32 0x00000000#32)) (col d)
        (broadcastInDim S3200000 ![] bcast_S_S3200000 (constant S_ .f32 0x3F800000#32)))
      (broadcastInDim S100000 ![] bcast_S_S100000 (constant S_ .f32 0x3F800000#32)))

/-- The mean of the source nodes' 14-column rows over each node's incoming edges. -/
def agg14 (s d : IVec S3200000 32) (g : FVec Ideal S100000x1 .f32) (h : FVec Ideal S100000x14 .f32) :
    FVec Ideal S100000x14 .f32 :=
  Host.divf
    (Host.scatterAdd scatter_S100000x14_S3200000x1_S3200000x14_1_0_0_1
      (broadcastInDim S100000x14 ![] bcast_S_S100000x14 (constant S_ .f32 0x00000000#32)) (col d)
      (Host.gather gather_S100000x14_S3200000x1_S3200000x14_1_0_n_n_0_1_114 h (wrap s)))
    (broadcastInDim S100000x14 ![0, 1] bcast_S100000x1_S100000x14_0_1 g)

/-- The mean of the source nodes' 64-column rows over each node's incoming edges. -/
def agg64 (s d : IVec S3200000 32) (g : FVec Ideal S100000x1 .f32) (h : FVec Ideal S100000x64 .f32) :
    FVec Ideal S100000x64 .f32 :=
  Host.divf
    (Host.scatterAdd scatter_S100000x64_S3200000x1_S3200000x64_1_0_0_1
      (broadcastInDim S100000x64 ![] bcast_S_S100000x64 (constant S_ .f32 0x00000000#32)) (col d)
      (Host.gather gather_S100000x64_S3200000x1_S3200000x64_1_0_n_n_0_1_164 h (wrap s)))
    (broadcastInDim S100000x64 ![0, 1] bcast_S100000x1_S100000x64_0_1 g)

/-- A bias vector of 64 entries as one row. -/
def row64 (b : FVec Ideal S64 .f32) : FVec Ideal S1x64 .f32 := broadcastInDim S1x64 ![1] bcast_S64_S1x64_1 b

/-- A bias of one entry as one row. -/
def row1 (b : FVec Ideal S1 .f32) : FVec Ideal S1x1 .f32 := broadcastInDim S1x1 ![1] bcast_S1_S1x1_1 b

/-- The first layer: `max (a · wl + h · wr + b, 0)` on 14-column inputs. -/
def layer14 (a h : FVec Ideal S100000x14 .f32) (wl wr : FVec Ideal S14x64 .f32) (b : FVec Ideal S1x64 .f32) :
    FVec Ideal S100000x64 .f32 :=
  maximumf
    (addf (addf (Host.dotGeneral dot_S100000x14_S14x64_S100000x64_1_0_0_1_n_n none a wl)
        (Host.dotGeneral dot_S100000x14_S14x64_S100000x64_1_0_0_1_n_n none h wr))
      (broadcastInDim S100000x64 ![0, 1] bcast_S1x64_S100000x64_0_1 b))
    (broadcastInDim S100000x64 ![] bcast_S_S100000x64 (constant S_ .f32 0x00000000#32))

/-- The second layer: `max (a · wl + h · wr + b, 0)` on 64-column inputs. -/
def layer64 (a h : FVec Ideal S100000x64 .f32) (wl wr : FVec Ideal S64x64 .f32) (b : FVec Ideal S1x64 .f32) :
    FVec Ideal S100000x64 .f32 :=
  maximumf
    (addf (addf (Host.dotGeneral dot_S100000x64_S64x64_S100000x64_1_0_0_1_n_n none a wl)
        (Host.dotGeneral dot_S100000x64_S64x64_S100000x64_1_0_0_1_n_n none h wr))
      (broadcastInDim S100000x64 ![0, 1] bcast_S1x64_S100000x64_0_1 b))
    (broadcastInDim S100000x64 ![] bcast_S_S100000x64 (constant S_ .f32 0x00000000#32))

/-- Per graph, the mean of its nodes' rows. -/
def pool (bt : IVec S100000 32) (h : FVec Ideal S100000x64 .f32) : FVec Ideal S5000x64 .f32 :=
  Host.divf
    (Host.scatterAdd scatter_S5000x64_S100000x1_S100000x64_1_0_0_1
      (broadcastInDim S5000x64 ![] bcast_S_S5000x64 (constant S_ .f32 0x00000000#32))
      (broadcastInDim S100000x1 ![0] bcast_S100000_S100000x1_0 bt) h)
    (broadcastInDim S5000x64 ![0, 1] bcast_S5000x1_S5000x64_0_1
      (broadcastInDim S5000x1 ![0] bcast_S5000_S5000x1_0
        (maximumf
          (Host.scatterAdd scatter_S5000_S100000x1_S100000_n_0_0_1
            (broadcastInDim S5000 ![] bcast_S_S5000 (constant S_ .f32 0x00000000#32))
            (broadcastInDim S100000x1 ![0] bcast_S100000_S100000x1_0 bt)
            (broadcastInDim S100000 ![] bcast_S_S100000 (constant S_ .f32 0x3F800000#32)))
          (broadcastInDim S5000 ![] bcast_S_S5000 (constant S_ .f32 0x3F800000#32)))))

/-- The head: `p · w + b`. -/
def lin (p : FVec Ideal S5000x64 .f32) (w : FVec Ideal S64x1 .f32) (b : FVec Ideal S1x1 .f32) : FVec Ideal S5000x1 .f32 :=
  addf (Host.dotGeneral dot_S5000x64_S64x1_S5000x1_1_0_0_1_n_n none p w)
    (broadcastInDim S5000x1 ![0, 1] bcast_S1x1_S5000x1_0_1 b)

/-- The nodes' hidden rows after the first layer. -/
def hid1 (x : FVec Ideal S100000x11 .f32) (p : FVec Ideal S100000x3 .f32) (e : IVec S2x3200000 32)
    (w1l w1r : FVec Ideal S14x64 .f32) (b1 : FVec Ideal S1x64 .f32) : FVec Ideal S100000x64 .f32 :=
  layer14 (agg14 (srcOf e) (dstOf e) (degCol (dstOf e)) (feat x p)) (feat x p) w1l w1r b1

/-- The nodes' hidden rows after the second layer. -/
def hid2 (e : IVec S2x3200000 32) (h1 : FVec Ideal S100000x64 .f32) (w2l w2r : FVec Ideal S64x64 .f32)
    (b2 : FVec Ideal S1x64 .f32) : FVec Ideal S100000x64 .f32 :=
  layer64 (agg64 (srcOf e) (dstOf e) (degCol (dstOf e)) h1) h1 w2l w2r b2

/-- The whole network, with each bias laid out as a row by `rb1`, `rb2`, `rbl`. -/
def net (x : FVec Ideal S100000x11 .f32) (p : FVec Ideal S100000x3 .f32) (e : IVec S2x3200000 32) (bt : IVec S100000 32)
    (w1l w1r : FVec Ideal S14x64 .f32) (rb1 : FVec Ideal S1x64 .f32) (w2l w2r : FVec Ideal S64x64 .f32)
    (rb2 : FVec Ideal S1x64 .f32) (wl : FVec Ideal S64x1 .f32) (rbl : FVec Ideal S1x1 .f32) : FVec Ideal S5000x1 .f32 :=
  lin (pool bt (hid2 e (hid1 x p e w1l w1r rb1) w2l w2r rb2)) wl rbl

/-- The reference program's result term is the network of its arguments. -/
theorem net_eq_reference (m : (ℓ : Loc nD τ sig) → Buf (Elt Ideal) ℓ) (c : Dev nD) :
    Cert.ReferenceIdeal.Value.res_main_v72 (F := Ideal) m c
      = net (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (row64 (m ((c.tc : Thread nD τ).loc main_arg6)))
          (m ((c.tc : Thread nD τ).loc main_arg7)) (m ((c.tc : Thread nD τ).loc main_arg8))
          (row64 (m ((c.tc : Thread nD τ).loc main_arg9)))
          (m ((c.tc : Thread nD τ).loc main_arg10)) (row1 (m ((c.tc : Thread nD τ).loc main_arg11))) := by
  unfold Cert.ReferenceIdeal.Value.res_main_v72
  rfl

/-! ## The layers and the head, index by index -/

theorem layer14_eq (a h : FVec Ideal S100000x14 .f32) (wl wr : FVec Ideal S14x64 .f32) (b : FVec Ideal S1x64 .f32) :
    layer14 a h wl wr b = PlainDot.affineAt (M := 100000) (K := 14) (N := 64) a h wl wr b (Ideal.ofBits .f32 0x00000000#32) :=
  funext fun j => PlainDot.host_affine_apply (M := 100000) (K := 14) (N := 64) a h wl wr b
    bcast_S1x64_S100000x64_0_1 bcast_S_S100000x64 j

theorem layer64_eq (a h : FVec Ideal S100000x64 .f32) (wl wr : FVec Ideal S64x64 .f32) (b : FVec Ideal S1x64 .f32) :
    layer64 a h wl wr b = PlainDot.affineAt (M := 100000) (K := 64) (N := 64) a h wl wr b (Ideal.ofBits .f32 0x00000000#32) :=
  funext fun j => PlainDot.host_affine_apply (M := 100000) (K := 64) (N := 64) a h wl wr b
    bcast_S1x64_S100000x64_0_1 bcast_S_S100000x64 j

theorem lin_eq (p : FVec Ideal S5000x64 .f32) (w : FVec Ideal S64x1 .f32) (b : FVec Ideal S1x1 .f32) :
    lin p w b = PlainDot.linAt (M := 5000) (K := 64) (N := 1) p w b :=
  funext fun j => PlainDot.host_lin_apply (M := 5000) (K := 64) (N := 1) p w b bcast_S1x1_S5000x1_0_1 j

end Cert.Net

end
-- ==== Proof.Fold.lean ====
/-
  The idealized kernel's result, read through @main's segments.

  The contents of the TensorCore's buffers at the six segment boundaries are a fold (`Gen.W1 … Gen.W6`): a stretch of
  host operations applies them to the contents before it; a region replaces its output array by what its write-backs
  leave (`region0`, `region1`, `region2`: the clamped affine map, or the affine map, of the arrays at its entry) and
  keeps every other buffer.  Walking the fold:
    * after the first stretch the buffers hold the node features, the edge rows, the degree column, the first mean
      aggregation and the first bias as a row (`w1_*`);
    * region 0 leaves the first layer's hidden rows (`w2_hid`); the edge rows, the degree column and the arguments
      pass through (`w2_keep`);
    * the second stretch computes the second mean aggregation from those hidden rows (`w3_*`), region 1 the second
      layer (`w4_hid`), the third stretch the per-graph mean (`w5_*`), region 2 the head (`w6_out`).
  Composed (`kernel_result`): the result buffer ends holding `Cert.Net.net` of the arguments — each bias laid out as a
  row by a reshape in the kernel's program and by a broadcast in the network's definition: one array
  (`PlainDot.shapeCast_eq_broadcastInDim_row`).
-/
import proofs.«126216_j32727650795728_1_alg».proof.Proof.GenP.KernelIdeal.Frame
import proofs.«126216_j32727650795728_1_alg».proof.Proof.Region0
import proofs.«126216_j32727650795728_1_alg».proof.Proof.Region1
import proofs.«126216_j32727650795728_1_alg».proof.Proof.Region2
import proofs.«126216_j32727650795728_1_alg».proof.Proof.Net
import Idealize.ShloMosaic.Lib.StableHlo.Run

set_option maxRecDepth 16384

noncomputable section

namespace Cert.KernelIdeal.Net

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After the first stretch of host operations -/

theorem w1_feat : W1 m ρ c (Proc.devRef .tc main_v0) = (Cert.Net.feat (m ((c.tc : Thread nD τ).loc main_arg0)) (m ((c.tc : Thread nD τ).loc main_arg1))) := by
  dsimp only [W1, hostOps0]; after_results_simp <;> rfl
theorem w1_src : W1 m ρ c (Proc.devRef .tc main_v2) = (Cert.Net.srcOf (m ((c.tc : Thread nD τ).loc main_arg2))) := by
  dsimp only [W1, hostOps0]; after_results_simp <;> rfl
theorem w1_dst : W1 m ρ c (Proc.devRef .tc main_v4) = (Cert.Net.dstOf (m ((c.tc : Thread nD τ).loc main_arg2))) := by
  dsimp only [W1, hostOps0]; after_results_simp <;> rfl
theorem w1_deg : W1 m ρ c (Proc.devRef .tc main_v11) = (Cert.Net.degCol (Cert.Net.dstOf (m ((c.tc : Thread nD τ).loc main_arg2)))) := by
  dsimp only [W1, hostOps0]; after_results_simp <;> rfl
theorem w1_agg : W1 m ρ c (Proc.devRef .tc main_v23) = Cert.Net.agg14 (Cert.Net.srcOf (m ((c.tc : Thread nD τ).loc main_arg2))) (Cert.Net.dstOf (m ((c.tc : Thread nD τ).loc main_arg2))) (Cert.Net.degCol (Cert.Net.dstOf (m ((c.tc : Thread nD τ).loc main_arg2)))) (Cert.Net.feat (m ((c.tc : Thread nD τ).loc main_arg0)) (m ((c.tc : Thread nD τ).loc main_arg1))) := by
  dsimp only [W1, hostOps0]; after_results_simp <;> rfl
theorem w1_bias : W1 m ρ c (Proc.devRef .tc main_v24) = shapeCast S1x64 (m ((c.tc : Thread nD τ).loc main_arg6)) shapeCasts_S64_S1x64 := by
  dsimp only [W1, hostOps0]; after_results_simp <;> rfl
theorem w1_arg3 : W1 m ρ c (Proc.devRef .tc main_arg3) = (m ((c.tc : Thread nD τ).loc main_arg3)) := by
  dsimp only [W1, hostOps0]; after_results_simp <;> rfl
theorem w1_arg4 : W1 m ρ c (Proc.devRef .tc main_arg4) = (m ((c.tc : Thread nD τ).loc main_arg4)) := by
  dsimp only [W1, hostOps0]; after_results_simp <;> rfl
theorem w1_arg5 : W1 m ρ c (Proc.devRef .tc main_arg5) = (m ((c.tc : Thread nD τ).loc main_arg5)) := by
  dsimp only [W1, hostOps0]; after_results_simp <;> rfl
theorem w1_arg7 : W1 m ρ c (Proc.devRef .tc main_arg7) = (m ((c.tc : Thread nD τ).loc main_arg7)) := by
  dsimp only [W1, hostOps0]; after_results_simp <;> rfl
theorem w1_arg8 : W1 m ρ c (Proc.devRef .tc main_arg8) = (m ((c.tc : Thread nD τ).loc main_arg8)) := by
  dsimp only [W1, hostOps0]; after_results_simp <;> rfl
theorem w1_arg9 : W1 m ρ c (Proc.devRef .tc main_arg9) = (m ((c.tc : Thread nD τ).loc main_arg9)) := by
  dsimp only [W1, hostOps0]; after_results_simp <;> rfl
theorem w1_arg10 : W1 m ρ c (Proc.devRef .tc main_arg10) = (m ((c.tc : Thread nD τ).loc main_arg10)) := by
  dsimp only [W1, hostOps0]; after_results_simp <;> rfl
theorem w1_arg11 : W1 m ρ c (Proc.devRef .tc main_arg11) = (m ((c.tc : Thread nD τ).loc main_arg11)) := by
  dsimp only [W1, hostOps0]; after_results_simp <;> rfl

/-! ## After region 0 -/

/-- The first layer's hidden rows. -/
def hidden1 : S100000x64.Idx → EReal :=
  PlainDot.affineAt (M := 100000) (K := 14) (N := 64) (Cert.Net.agg14 (Cert.Net.srcOf (m ((c.tc : Thread nD τ).loc main_arg2))) (Cert.Net.dstOf (m ((c.tc : Thread nD τ).loc main_arg2))) (Cert.Net.degCol (Cert.Net.dstOf (m ((c.tc : Thread nD τ).loc main_arg2)))) (Cert.Net.feat (m ((c.tc : Thread nD τ).loc main_arg0)) (m ((c.tc : Thread nD τ).loc main_arg1)))) (Cert.Net.feat (m ((c.tc : Thread nD τ).loc main_arg0)) (m ((c.tc : Thread nD τ).loc main_arg1))) (m ((c.tc : Thread nD τ).loc main_arg4)) (m ((c.tc : Thread nD τ).loc main_arg5))
    (shapeCast S1x64 (m ((c.tc : Thread nD τ).loc main_arg6)) shapeCasts_S64_S1x64) (Ideal.ofBits .f32 0x00000000#32)

theorem w2_hid : W2 m ρ c (Proc.devRef .tc main_v25) = hidden1 m c := by
  refine (W2_arr m ρ c 5).trans ((region0 (V1 m ρ) c).trans ?_)
  unfold G0 hidden1
  dsimp only [V1]
  rw [w1_agg, w1_feat, w1_arg4, w1_arg5, w1_bias]

theorem w2_keep_src : W2 m ρ c (Proc.devRef .tc main_v2) = W1 m ρ c (Proc.devRef .tc main_v2) := W2_of_ne m ρ c main_v2 (by decide)
theorem w2_keep_dst : W2 m ρ c (Proc.devRef .tc main_v4) = W1 m ρ c (Proc.devRef .tc main_v4) := W2_of_ne m ρ c main_v4 (by decide)
theorem w2_keep_deg : W2 m ρ c (Proc.devRef .tc main_v11) = W1 m ρ c (Proc.devRef .tc main_v11) := W2_of_ne m ρ c main_v11 (by decide)
theorem w2_keep_arg3 : W2 m ρ c (Proc.devRef .tc main_arg3) = W1 m ρ c (Proc.devRef .tc main_arg3) := W2_of_ne m ρ c main_arg3 (by decide)
theorem w2_keep_arg7 : W2 m ρ c (Proc.devRef .tc main_arg7) = W1 m ρ c (Proc.devRef .tc main_arg7) := W2_of_ne m ρ c main_arg7 (by decide)
theorem w2_keep_arg8 : W2 m ρ c (Proc.devRef .tc main_arg8) = W1 m ρ c (Proc.devRef .tc main_arg8) := W2_of_ne m ρ c main_arg8 (by decide)
theorem w2_keep_arg9 : W2 m ρ c (Proc.devRef .tc main_arg9) = W1 m ρ c (Proc.devRef .tc main_arg9) := W2_of_ne m ρ c main_arg9 (by decide)
theorem w2_keep_arg10 : W2 m ρ c (Proc.devRef .tc main_arg10) = W1 m ρ c (Proc.devRef .tc main_arg10) := W2_of_ne m ρ c main_arg10 (by decide)
theorem w2_keep_arg11 : W2 m ρ c (Proc.devRef .tc main_arg11) = W1 m ρ c (Proc.devRef .tc main_arg11) := W2_of_ne m ρ c main_arg11 (by decide)

/-! ## After the second stretch of host operations -/

theorem w3_agg : W3 m ρ c (Proc.devRef .tc main_v37)
    = Cert.Net.agg64 (W2 m ρ c (Proc.devRef .tc main_v2)) (W2 m ρ c (Proc.devRef .tc main_v4)) (W2 m ρ c (Proc.devRef .tc main_v11)) (W2 m ρ c (Proc.devRef .tc main_v25)) := by
  dsimp only [W3, hostOps1]; after_results_simp <;> rfl
theorem w3_hid : W3 m ρ c (Proc.devRef .tc main_v25) = W2 m ρ c (Proc.devRef .tc main_v25) := by
  dsimp only [W3, hostOps1]; after_results_simp <;> rfl
theorem w3_bias : W3 m ρ c (Proc.devRef .tc main_v38) = shapeCast S1x64 (W2 m ρ c (Proc.devRef .tc main_arg9)) shapeCasts_S64_S1x64 := by
  dsimp only [W3, hostOps1]; after_results_simp <;> rfl
theorem w3_arg3 : W3 m ρ c (Proc.devRef .tc main_arg3) = W2 m ρ c (Proc.devRef .tc main_arg3) := by
  dsimp only [W3, hostOps1]; after_results_simp <;> rfl
theorem w3_arg7 : W3 m ρ c (Proc.devRef .tc main_arg7) = W2 m ρ c (Proc.devRef .tc main_arg7) := by
  dsimp only [W3, hostOps1]; after_results_simp <;> rfl
theorem w3_arg8 : W3 m ρ c (Proc.devRef .tc main_arg8) = W2 m ρ c (Proc.devRef .tc main_arg8) := by
  dsimp only [W3, hostOps1]; after_results_simp <;> rfl
theorem w3_arg10 : W3 m ρ c (Proc.devRef .tc main_arg10) = W2 m ρ c (Proc.devRef .tc main_arg10) := by
  dsimp only [W3, hostOps1]; after_results_simp <;> rfl
theorem w3_arg11 : W3 m ρ c (Proc.devRef .tc main_arg11) = W2 m ρ c (Proc.devRef .tc main_arg11) := by
  dsimp only [W3, hostOps1]; after_results_simp <;> rfl

/-! ## After region 1 -/

/-- The second layer's hidden rows. -/
def hidden2 : S100000x64.Idx → EReal :=
  PlainDot.affineAt (M := 100000) (K := 64) (N := 64) (Cert.Net.agg64 (Cert.Net.srcOf (m ((c.tc : Thread nD τ).loc main_arg2))) (Cert.Net.dstOf (m ((c.tc : Thread nD τ).loc main_arg2))) (Cert.Net.degCol (Cert.Net.dstOf (m ((c.tc : Thread nD τ).loc main_arg2)))) (hidden1 m c)) (hidden1 m c) (m ((c.tc : Thread nD τ).loc main_arg7)) (m ((c.tc : Thread nD τ).loc main_arg8))
    (shapeCast S1x64 (m ((c.tc : Thread nD τ).loc main_arg9)) shapeCasts_S64_S1x64) (Ideal.ofBits .f32 0x00000000#32)

theorem w4_hid : W4 m ρ c (Proc.devRef .tc main_v39) = hidden2 m c := by
  refine (W4_arr m ρ c 5).trans ((region1 (V3 m ρ) c).trans ?_)
  unfold G1 hidden2
  dsimp only [V3]
  rw [w3_agg, w3_hid, w3_arg7, w3_arg8, w3_bias, w2_hid, w2_keep_src, w2_keep_dst, w2_keep_deg, w2_keep_arg7, w2_keep_arg8,
    w2_keep_arg9, w1_src, w1_dst, w1_deg, w1_arg7, w1_arg8, w1_arg9]

theorem w4_keep_arg3 : W4 m ρ c (Proc.devRef .tc main_arg3) = W3 m ρ c (Proc.devRef .tc main_arg3) := W4_of_ne m ρ c main_arg3 (by decide)
theorem w4_keep_arg10 : W4 m ρ c (Proc.devRef .tc main_arg10) = W3 m ρ c (Proc.devRef .tc main_arg10) := W4_of_ne m ρ c main_arg10 (by decide)
theorem w4_keep_arg11 : W4 m ρ c (Proc.devRef .tc main_arg11) = W3 m ρ c (Proc.devRef .tc main_arg11) := W4_of_ne m ρ c main_arg11 (by decide)

/-! ## After the third stretch of host operations -/

theorem w5_pool : W5 m ρ c (Proc.devRef .tc main_v51) = Cert.Net.pool (W4 m ρ c (Proc.devRef .tc main_arg3)) (W4 m ρ c (Proc.devRef .tc main_v39)) := by
  dsimp only [W5, hostOps2]; after_results_simp <;> rfl
theorem w5_bias : W5 m ρ c (Proc.devRef .tc main_v52) = shapeCast S1x1 (W4 m ρ c (Proc.devRef .tc main_arg11)) shapeCasts_S1_S1x1 := by
  dsimp only [W5, hostOps2]; after_results_simp <;> rfl
theorem w5_arg10 : W5 m ρ c (Proc.devRef .tc main_arg10) = W4 m ρ c (Proc.devRef .tc main_arg10) := by
  dsimp only [W5, hostOps2]; after_results_simp <;> rfl

/-! ## After region 2: the result -/

theorem w6_out : W6 m ρ c (Proc.devRef .tc main_v53)
    = PlainDot.linAt (M := 5000) (K := 64) (N := 1) (Cert.Net.pool (m ((c.tc : Thread nD τ).loc main_arg3)) (hidden2 m c)) (m ((c.tc : Thread nD τ).loc main_arg10))
        (shapeCast S1x1 (m ((c.tc : Thread nD τ).loc main_arg11)) shapeCasts_S1_S1x1) := by
  refine (W6_arr m ρ c 3).trans ((region2 (V5 m ρ) c).trans ?_)
  unfold G2
  dsimp only [V5]
  rw [w5_pool, w5_arg10, w5_bias, w4_hid, w4_keep_arg3, w4_keep_arg10, w4_keep_arg11, w3_arg3, w3_arg10, w3_arg11,
    w2_keep_arg3, w2_keep_arg10, w2_keep_arg11, w1_arg3, w1_arg10, w1_arg11]

/-- The result buffer ends holding the network of the arguments. -/
theorem kernel_result : W6 m ρ c (Proc.devRef .tc main_v53)
    = Cert.Net.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (Cert.Net.row64 (m ((c.tc : Thread nD τ).loc main_arg6))) (m ((c.tc : Thread nD τ).loc main_arg7)) (m ((c.tc : Thread nD τ).loc main_arg8))
        (Cert.Net.row64 (m ((c.tc : Thread nD τ).loc main_arg9))) (m ((c.tc : Thread nD τ).loc main_arg10)) (Cert.Net.row1 (m ((c.tc : Thread nD τ).loc main_arg11))) := by
  rw [w6_out]
  unfold Cert.Net.net Cert.Net.hid2 Cert.Net.hid1 hidden2 hidden1
  rw [Cert.Net.lin_eq, Cert.Net.layer64_eq, Cert.Net.layer14_eq]
  unfold Cert.Net.row64 Cert.Net.row1
  rw [← PlainDot.shapeCast_eq_broadcastInDim_row (N := 64) (m ((c.tc : Thread nD τ).loc main_arg6)) shapeCasts_S64_S1x64 Cert.ReferenceIdeal.Gen.bcast_S64_S1x64_1,
    ← PlainDot.shapeCast_eq_broadcastInDim_row (N := 64) (m ((c.tc : Thread nD τ).loc main_arg9)) shapeCasts_S64_S1x64 Cert.ReferenceIdeal.Gen.bcast_S64_S1x64_1,
    ← PlainDot.shapeCast_eq_broadcastInDim_row (N := 1) (m ((c.tc : Thread nD τ).loc main_arg11)) shapeCasts_S1_S1x1 Cert.ReferenceIdeal.Gen.bcast_S1_S1x1_1]

end Cert.KernelIdeal.Net

end
-- ==== Proof.lean ====
/-
  A two-layer mean-aggregation graph network with a per-graph mean and a linear head, as a Pallas program of three kernel
  regions (layer, layer, head) among host gathers and scatter-adds, against its plain jnp reference, at the ideal
  instance (floats are extended reals, every operation exact, a change of float format the identity).

  Both programs compute `Cert.Net.net` of the twelve arguments:
    h0 = [x | pos],   deg = max (#incoming edges, 1),
    h1 = max (mean_in (h0) · W1l + h0 · W1r + b1, 0),   h2 = max (mean_in (h1) · W2l + h1 · W2r + b2, 0),
    out = mean_graph (h2) · Wlin + blin.
  The reference's run ends with its result at its composed term, which is `net` by unfolding (`Cert.Net.net_eq_reference`).
  The kernel's run ends with its result at the last segment boundary's contents (`Cert.KernelIdeal.Net.run_out`), and
  walking the boundaries — a host stretch applies its operations, a region leaves the clamped affine map of the arrays
  at its entry, since each block's stored entry is a sum over the contraction index of row times column, which is also
  what the host's `dot_general` is — gives `net` again (`Cert.KernelIdeal.Net.kernel_result`).  Sums of extended
  reals are compared term by term in the same order, so no law that needs finiteness is used and the precondition is
  never opened.  The ideal pass rewrote nothing, so `preserves` is `True`.  The three frames are the generated frame
  runs (the reference's: its generated run with the result dropped).
-/
import proofs.«126216_j32727650795728_1_alg».proof.Defs
import proofs.«126216_j32727650795728_1_alg».proof.Proof.Gen.Kernel
import proofs.«126216_j32727650795728_1_alg».proof.Proof.GenP.Kernel.Frame
import proofs.«126216_j32727650795728_1_alg».proof.Proof.Gen.KernelIdeal
import proofs.«126216_j32727650795728_1_alg».proof.Proof.GenP.KernelIdeal.Frame
import proofs.«126216_j32727650795728_1_alg».proof.Proof.Gen.ReferenceIdeal
import proofs.«126216_j32727650795728_1_alg».proof.Proof.Gen.ReferenceIdeal.Run
import proofs.«126216_j32727650795728_1_alg».proof.Proof.Gen.Pre_finite_inputs
import proofs.«126216_j32727650795728_1_alg».proof.Proof.KRun
import proofs.«126216_j32727650795728_1_alg».proof.Proof.Fold
import proofs.«126216_j32727650795728_1_alg».proof.Proof.Net
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the network of the (agreeing) arguments in their result buffers. -/
theorem algebraic : Cert.algebraic_KernelIdeal_ReferenceIdeal := by
  intro m ρ m' ρ' _ hagree
  refine ⟨fun c => Cert.Net.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (Cert.Net.row64 (m ((c.tc : Thread Cert.KernelIdeal.nD Cert.KernelIdeal.τ).loc Cert.KernelIdeal.main_arg6)))
      (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (Cert.Net.row64 (m ((c.tc : Thread Cert.KernelIdeal.nD Cert.KernelIdeal.τ).loc Cert.KernelIdeal.main_arg9))) (m ((c.tc : Thread Cert.KernelIdeal.nD Cert.KernelIdeal.τ).loc Cert.KernelIdeal.main_arg10)) (Cert.Net.row1 (m ((c.tc : Thread Cert.KernelIdeal.nD Cert.KernelIdeal.τ).loc Cert.KernelIdeal.main_arg11))), ?_, ?_⟩
  · exact (θ_run Cert.KernelIdeal.defs _ _).mono
      (fun _ h c => ⟨(h c).1.trans (Cert.KernelIdeal.Net.kernel_result m ρ c), (h c).2⟩)
      (Cert.KernelIdeal.Net.run_out (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11⟩ := hagree c
    rw [Cert.Net.net_eq_reference m' c, e0, e1, e2, e3, e4, e5, e6, e7, e8, e9, e10, e11]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
